-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v10_1)) (v1 : (c : Dev Cert.KernelIdeal.nD) → Buf (Elt Ideal) ((c.tc : Thread Cert.KernelIdeal.nD Cert.KernelIdeal.τ).loc Cert.KernelIdeal.main_v10_2)) (v2 : (c : Dev Cert.KernelIdeal.nD) → Buf (Elt Ideal) ((c.tc : Thread Cert.KernelIdeal.nD Cert.KernelIdeal.τ).loc Cert.KernelIdeal.main_v10_3)) (v3 : (c : Dev Cert.KernelIdeal.nD) → Buf (Elt Ideal) ((c.tc : Thread Cert.KernelIdeal.nD Cert.KernelIdeal.τ).loc Cert.KernelIdeal.main_v10_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_1) = v0 c
          ∧ r.2.mem ((c.tc : Thread Cert.KernelIdeal.nD Cert.KernelIdeal.τ).loc Cert.KernelIdeal.main_v10_2) = v1 c
          ∧ r.2.mem ((c.tc : Thread Cert.KernelIdeal.nD Cert.KernelIdeal.τ).loc Cert.KernelIdeal.main_v10_3) = v2 c
          ∧ r.2.mem ((c.tc : Thread Cert.KernelIdeal.nD Cert.KernelIdeal.τ).loc Cert.KernelIdeal.main_v10_0) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v56) = v2 c
          ∧ r.2.mem ((c.tc : Thread Cert.ReferenceIdeal.nD Cert.ReferenceIdeal.τ).loc Cert.ReferenceIdeal.main_v49) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x256 : Shape := ⟨3, ![4, 4096, 256]⟩
abbrev S4x4096x2 : Shape := ⟨3, ![4, 4096, 2]⟩
abbrev S256x256 : Shape := ⟨2, ![256, 256]⟩
abbrev S256 : Shape := ⟨1, ![256]⟩
abbrev S_ : Shape := ⟨0, ![]⟩

class Facts : Prop where
  bcast_S_S4x4096x256 : S_.BroadcastsInDim S4x4096x256 (![] : Fin 0 → Fin S4x4096x256.rank)
  reducesTo_S4x4096x256_S_d0_1_2 : S4x4096x256.ReducesTo [0, 1, 2] S_
  h_S_ : 0 < S_.numel
  bcast_S_S4x4096x2 : S_.BroadcastsInDim S4x4096x2 (![] : Fin 0 → Fin S4x4096x2.rank)
  reducesTo_S4x4096x2_S_d0_1_2 : S4x4096x2.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_arg11 : FVec F S256 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  main_v58

def fn_part2 {F : FTy → Type} [FloatOps F] (main_arg7 : FVec F S256 .f32) (main_arg8 : FVec F S256x256 .f32) (main_arg9 : FVec F S256 .f32) (main_arg10 : FVec F S256x256 .f32) (main_arg11 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg10
  let main_cst_18 : FVec F S_ .f32 := constant S_ .f32 0x7F800000#32
  let main_v50 : FVec F S256x256 .f32 := broadcastInDim S256x256 ![] bcast_S_S256x256 main_cst_18
  fn_part3 (F := F) main_arg11 main_v48 main_v49 main_v50

def fn_part1 {F : FTy → Type} [FloatOps F] (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_v13 : IVec S_ 1) (main_v16 : IVec S4x4096x2 1) : IVec S_ 1 :=
  let main_c_5 : IVec S_ 1 := constantI S_ 1 1#1
  let main_v17 : IVec S_ 1 := (fun x v => Host.reduce IntOp.andi x v reducesTo_S4x4096x2_S_d0_1_2 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S4x4096x256 .f32) (main_arg1 : FVec F S4x4096x256 .f32) (main_arg2 : FVec F S4x4096x2 .f32) (main_arg3 : FVec F S4x4096x2 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) : IVec S_ 1 :=
  let main_v0 : FVec F S4x4096x256 .f32 := Host.absf main_arg0
  let main_cst : FVec F S_ .f32 := constant S_ .f32 0x7F800000#32
  let main_v1 : FVec F S4x4096x256 .f32 := broadcastInDim S4x4096x256 ![] bcast_S_S4x4096x256 main_cst
  let main_v2 : IVec S4x4096x256 1 := cmpf .olt main_v0 main_v1
  let main_c : IVec S_ 1 := constantI S_ 1 1#1
  let main_v3 : IVec S_ 1 := (fun x v => Host.reduce IntOp.andi x v reducesTo_S4x4096x256_S_d0_1_2 h_S_) main_v2 main_c
  let main_v4 : FVec F S4x4096x256 .f32 := Host.absf main_arg1
  let main_cst_0 : FVec F S_ .f32 := constant S_ .f32 0x7F800000#32
  let main_v5 : FVec F S4x4096x256 .f32 := broadcastInDim S4x4096x256 ![] bcast_S_S4x4096x256 main_cst_0
  let main_v6 : IVec S4x4096x256 1 := cmpf .olt main_v4 main_v5
  let main_c_1 : IVec S_ 1 := constantI S_ 1 1#1
  let main_v7 : IVec S_ 1 := (fun x v => Host.reduce IntOp.andi x v reducesTo_S4x4096x256_S_d0_1_2 h_S_) main_v6 main_c_1
  let main_v8 : IVec S_ 1 := andi main_v3 main_v7
  let main_v9 : FVec F S4x4096x2 .f32 := Host.absf main_arg2
  let main_cst_2 : FVec F S_ .f32 := constant S_ .f32 0x7F800000#32
  let main_v10 : FVec F S4x4096x2 .f32 := broadcastInDim S4x4096x2 ![] bcast_S_S4x4096x2 main_cst_2
  let main_v11 : IVec S4x4096x2 1 := cmpf .olt main_v9 main_v10
  let main_c_3 : IVec S_ 1 := constantI S_ 1 1#1
  let main_v12 : IVec S_ 1 := (fun x v => Host.reduce IntOp.andi x v reducesTo_S4x4096x2_S_d0_1_2 h_S_) main_v11 main_c_3
  let main_v13 : IVec S_ 1 := andi main_v8 main_v12
  let main_v14 : FVec F S4x4096x2 .f32 := Host.absf main_arg3
  let main_cst_4 : FVec F S_ .f32 := constant S_ .f32 0x7F800000#32
  let main_v15 : FVec F S4x4096x2 .f32 := broadcastInDim S4x4096x2 ![] bcast_S_S4x4096x2 main_cst_4
  let main_v16 : IVec S4x4096x2 1 := cmpf .olt main_v14 main_v15
  fn_part1 (F := F) main_arg4 main_arg5 main_arg6 main_arg7 main_arg8 main_arg9 main_arg10 main_arg11 main_v13 main_v16
-- ==== Kernel.lean ====
abbrev S4x4096x256 : Shape := ⟨3, ![4, 4096, 256]⟩
abbrev S4x4096x2 : Shape := ⟨3, ![4, 4096, 2]⟩
abbrev S256x256 : Shape := ⟨2, ![256, 256]⟩
abbrev S256 : Shape := ⟨1, ![256]⟩
abbrev S4x4096x1 : Shape := ⟨3, ![4, 4096, 1]⟩
abbrev S4x4096 : Shape := ⟨2, ![4, 4096]⟩
abbrev S4x1x4096 : Shape := ⟨3, ![4, 1, 4096]⟩
abbrev S1x256 : Shape := ⟨2, ![1, 256]⟩
abbrev S4x4096x4096 : Shape := ⟨3, ![4, 4096, 4096]⟩
abbrev S1x256x256 : Shape := ⟨3, ![1, 256, 256]⟩
abbrev S1x4096x256 : Shape := ⟨3, ![1, 4096, 256]⟩
abbrev S1x256x2 : Shape := ⟨3, ![1, 256, 2]⟩
abbrev S1x1x4096 : Shape := ⟨3, ![1, 1, 4096]⟩
abbrev S1x256x4096 : Shape := ⟨3, ![1, 256, 4096]⟩
abbrev S1x256x1 : Shape := ⟨3, ![1, 256, 1]⟩
abbrev S4096x256 : Shape := ⟨2, ![4096, 256]⟩
abbrev S256x4096 : Shape := ⟨2, ![256, 4096]⟩
abbrev S256x2 : Shape := ⟨2, ![256, 2]⟩
abbrev S1x4096 : Shape := ⟨2, ![1, 4096]⟩
abbrev S256x1 : Shape := ⟨2, ![256, 1]⟩

abbrev nBuf : Space → Nat
  | .hbm => 26
  | .vmem => 28
  | .smem => 0
  | _ => 0

abbrev bufTy : (tb : Table) → Fin (tcTables nBuf tb) → BufTy
  | .hbm, ⟨0, _⟩ => ⟨S4x4096x256, .f32⟩
  | .hbm, ⟨1, _⟩ => ⟨S4x4096x256, .f32⟩
  | .hbm, ⟨2, _⟩ => ⟨S4x4096x2, .f32⟩
  | .hbm, ⟨3, _⟩ => ⟨S4x4096x2, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S4x4096x1, .f32⟩
  | .hbm, ⟨13, _⟩ => ⟨S4x4096, .f32⟩
  | .hbm, ⟨14, _⟩ => ⟨S4x1x4096, .f32⟩
  | .hbm, ⟨15, _⟩ => ⟨S4x4096x1, .f32⟩
  | .hbm, ⟨16, _⟩ => ⟨S4x4096, .f32⟩
  | .hbm, ⟨17, _⟩ => ⟨S4x1x4096, .f32⟩
  | .hbm, ⟨18, _⟩ => ⟨S1x256, .f32⟩
  | .hbm, ⟨19, _⟩ => ⟨S1x256, .f32⟩
  | .hbm, ⟨20, _⟩ => ⟨S1x256, .f32⟩
  | .hbm, ⟨21, _⟩ => ⟨S1x256, .f32⟩
  | .hbm, ⟨22, _⟩ => ⟨S4x4096x4096, .f32⟩
  | .hbm, ⟨23, _⟩ => ⟨S4x4096x256, .f32⟩
  | .hbm, ⟨24, _⟩ => ⟨S4x4096x1, .f32⟩
  | .hbm, ⟨25, _⟩ => ⟨S4x4096x1, .f32⟩
  | .local _ .vmem, ⟨0, _⟩ => ⟨S1x256x256, .f32⟩
  | .local _ .vmem, ⟨1, _⟩ => ⟨S1x256x256, .f32⟩
  | .local _ .vmem, ⟨2, _⟩ => ⟨S1x4096x256, .f32⟩
  | .local _ .vmem, ⟨3, _⟩ => ⟨S1x4096x256, .f32⟩
  | .local _ .vmem, ⟨4, _⟩ => ⟨S1x256x2, .f32⟩
  | .local _ .vmem, ⟨5, _⟩ => ⟨S1x256x2, .f32⟩
  | .local _ .vmem, ⟨6, _⟩ => ⟨S1x1x4096, .f32⟩
  | .local _ .vmem, ⟨7, _⟩ => ⟨S1x1x4096, .f32⟩
  | .local _ .vmem, ⟨8, _⟩ => ⟨S1x1x4096, .f32⟩
  | .local _ .vmem, ⟨9, _⟩ => ⟨S1x1x4096, .f32⟩
  | .local _ .vmem, ⟨10, _⟩ => ⟨S256x256, .f32⟩
  | .local _ .vmem, ⟨11, _⟩ => ⟨S1x256, .f32⟩
  | .local _ .vmem, ⟨12, _⟩ => ⟨S256x256, .f32⟩
  | .local _ .vmem, ⟨13, _⟩ => ⟨S1x256, .f32⟩
  | .local _ .vmem, ⟨14, _⟩ => ⟨S256x256, .f32⟩
  | .local _ .vmem, ⟨15, _⟩ => ⟨S1x256, .f32⟩
  | .local _ .vmem, ⟨16, _⟩ => ⟨S256x256, .f32⟩
  | .local _ .vmem, ⟨17, _⟩ => ⟨S1x256, .f32⟩
  | .local _ .vmem, ⟨18, _⟩ => ⟨S1x256x4096, .f32⟩
  | .local _ .vmem, ⟨19, _⟩ => ⟨S1x256x4096, .f32⟩
  | .local _ .vmem, ⟨20, _⟩ => ⟨S1x256x256, .f32⟩
  | .local _ .vmem, ⟨21, _⟩ => ⟨S1x256x256, .f32⟩
  | .local _ .vmem, ⟨22, _⟩ => ⟨S1x256x1, .f32⟩
  | .local _ .vmem, ⟨23, _⟩ => ⟨S1x256x1, .f32⟩
  | .local _ .vmem, ⟨24, _⟩ => ⟨S1x256x1, .f32⟩
  | .local _ .vmem, ⟨25, _⟩ => ⟨S1x256x1, .f32⟩
  | .local _ .vmem, ⟨26, _⟩ => ⟨S4096x256, .f32⟩
  | .local _ .vmem, ⟨27, _⟩ => ⟨S4096x256, .bf16⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev main_v10_3 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x256x4096 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x1 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

class Facts₀ : Prop where
  slices_S4x4096x2_S4x4096x1_0_0_0 : S4x4096x2.Slices ![0, 0, 0] S4x4096x1
  shapeCasts_S4x4096x1_S4x4096 : S4x4096x1.ShapeCasts S4x4096
  bcast_S4x4096_S4x1x4096_0_2 : S4x4096.BroadcastsInDim S4x1x4096 (![0, 2] : Fin 2 → Fin S4x1x4096.rank)
  slices_S4x4096x2_S4x4096x1_0_0_1 : S4x4096x2.Slices ![0, 0, 1] S4x4096x1
  shapeCasts_S256_S1x256 : S256.ShapeCasts S1x256
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  inb_S256x256_S256x256_0_0 : ∀ a, (![0, 0] : Fin 2 → Nat) a + S256x256.size a ≤ S256x256.size a
  h_S256x256 : 0 < S256x256.numel
  transposes_S256x256_p1_0_S256x256 : S256x256.Transposes [1, 0] S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  bitsLt_bf16_f32 : FTy.bits .bf16 < FTy.bits .f32
  packedbf16_S4096x256_S4096x256_0_0 : (Rect.unit (s := S4096x256) ![0, 0] S4096x256.size inb_S4096x256_S4096x256_0_0).PackedRows (EltTy.packing .bf16)
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  broadcasts_S1x256_S256x256 : S1x256.Broadcasts S256x256
  transposes_S4096x256_p1_0_S256x4096 : S4096x256.Transposes [1, 0] S256x4096
  inb_S1x256x2_S1x256x2_0_0_0 : ∀ a, (![0, 0, 0] : Fin 3 → Nat) a + S1x256x2.size a ≤ S1x256x2.size a
  h_S1x256x2 : 0 < S1x256x2.numel
  shapeCasts_S1x256x2_S256x2 : S1x256x2.ShapeCasts S256x2
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  slices_S256x2_o0_1_S256x1 : S256x2.Slices ![0, 1] S256x1
  broadcasts_S256x1_S256x4096 : S256x1.Broadcasts S256x4096
  broadcasts_S1x4096_S256x4096 : S1x4096.Broadcasts S256x4096
  slices_S256x2_o0_0_S256x1 : S256x2.Slices ![0, 0] S256x1
  reduces_S256x4096_S256 : S256x4096.Reduces [1] S256
  shapeCasts_S256_S256x1 : S256.ShapeCasts S256x1
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  shapeCasts_S256x4096_S1x256x4096 : S256x4096.ShapeCasts S1x256x4096
  shapeCasts_S256x256_S1x256x256 : S256x256.ShapeCasts S1x256x256
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  shapeCasts_S256x1_S1x256x1 : S256x1.ShapeCasts S1x256x1
  natLt_1_32 : 1 < 32
  dot_S4096x256_S256x256_S4096x256_1_0_0_1_n_n_wf : DotDims.WF S4096x256 S256x256 S4096x256 [1] [0] [0] [1] [] []
  dot_S256x256_S256x256_S256x256_1_0_0_1_n_n_wf : DotDims.WF S256x256 S256x256 S256x256 [1] [0] [0] [1] [] []
  dot_S256x256_S256x4096_S256x4096_1_0_0_1_n_n_wf : DotDims.WF S256x256 S256x4096 S256x4096 [1] [0] [0] [1] [] []
  dot_S256x4096_S4096x256_S256x256_1_0_0_1_n_n_wf : DotDims.WF S256x4096 S4096x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x256.size a ≤ S4x4096x256.size a
  hwx0_0 : ∀ i : grid0.Coords, EltTy.bits .f32 = 32 ∨ (Rect.block (s := S4x4096x256) S1x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x256.size a ≤ S4x4096x256.size a
  hwx0_1 : ∀ i : grid0.Coords, EltTy.bits .f32 = 32 ∨ (Rect.block (s := S4x4096x256) S1x4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x2.size a ≤ S4x4096x2.size a
  hwx0_2 : ∀ i : grid0.Coords, EltTy.bits .f32 = 32 ∨ (Rect.block (s := S4x4096x2) S1x256x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S4x1x4096.size a
  hwx0_3 : ∀ i : grid0.Coords, EltTy.bits .f32 = 32 ∨ (Rect.block (s := S4x1x4096) S1x1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x4096.size a ≤ S4x1x4096.size a
  hwx0_4 : ∀ i : grid0.Coords, EltTy.bits .f32 = 32 ∨ (Rect.block (s := S4x1x4096) S1x1x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .f32 = 32 ∨ (Rect.block (s := S256x256) S256x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x256.size a ≤ S256x256.size a
  hwx0_11 : ∀ i : grid0.Coords, EltTy.bits .f32 = 32 ∨ (Rect.block (s := S256x256) S256x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x256.size a
  hwx0_12 : ∀ i : grid0.Coords, EltTy.bits .f32 = 32 ∨ (Rect.block (s := S1x256) S1x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x256x4096.size a ≤ S4x4096x4096.size a
  hwx0_13 : ∀ i : grid0.Coords, EltTy.bits .f32 = 32 ∨ (Rect.block (s := S4x4096x4096) S1x256x4096.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x256x256.size a ≤ S4x4096x256.size a
  hwx0_14 : ∀ i : grid0.Coords, EltTy.bits .f32 = 32 ∨ (Rect.block (s := S4x4096x256) S1x256x256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x256x1.size a ≤ S4x4096x1.size a
  hwx0_15 : ∀ i : grid0.Coords, EltTy.bits .f32 = 32 ∨ (Rect.block (s := S4x4096x1) S1x256x1.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1x256x1.size a ≤ S4x4096x1.size a
  hwx0_16 : ∀ i : grid0.Coords, EltTy.bits .f32 = 32 ∨ (Rect.block (s := S4x4096x1) S1x256x1.size (cc0_transform_16 i) (hinb0_16 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x256_S256x4096_S256x4096_1_0_0_1_n_n : DotDims S256x256 S256x4096 S256x4096 where
  lhsContracting := [1]
  rhsContracting := [0]
  lhsNonContracting := [0]
  rhsNonContracting := [1]
  lhsBatch := []
  rhsBatch := []
  wf := dot_S256x256_S256x4096_S256x4096_1_0_0_1_n_n_wf
def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf

abbrev win0_0 : Pipeline.Window sig grid0 :=
  Pipeline.Window.ofSpec (Memref.whole main_arg0) S1x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg10) S256x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v9) S1x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v10_0) S1x256x4096.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v10_1) S1x256x256.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v10_2) S1x256x1.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v10_3) S1x256x1.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S4x4096x256 : Shape := ⟨3, ![4, 4096, 256]⟩
abbrev S4x4096x2 : Shape := ⟨3, ![4, 4096, 2]⟩
abbrev S256x256 : Shape := ⟨2, ![256, 256]⟩
abbrev S256 : Shape := ⟨1, ![256]⟩
abbrev S1x1x256 : Shape := ⟨3, ![1, 1, 256]⟩
abbrev S4x4096x1 : Shape := ⟨3, ![4, 4096, 1]⟩
abbrev S4x4096 : Shape := ⟨2, ![4, 4096]⟩
abbrev S4x1x4096 : Shape := ⟨3, ![4, 1, 4096]⟩
abbrev S4x4096x4096 : Shape := ⟨3, ![4, 4096, 4096]⟩
abbrev S_ : Shape := ⟨0, ![]⟩

abbrev nBuf : Space → Nat
  | .hbm => 84
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S4x4096x256, .f32⟩
  | .hbm, ⟨2, _⟩ => ⟨S4x4096x2, .f32⟩
  | .hbm, ⟨3, _⟩ => ⟨S4x4096x2, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S4x4096x256, .f32⟩
  | .hbm, ⟨13, _⟩ => ⟨S1x1x256, .f32⟩
  | .hbm, ⟨14, _⟩ => ⟨S4x4096x256, .f32⟩
  | .hbm, ⟨15, _⟩ => ⟨S4x4096x256, .f32⟩
  | .hbm, ⟨16, _⟩ => ⟨S4x4096x256, .f32⟩
  | .hbm, ⟨17, _⟩ => ⟨S1x1x256, .f32⟩
  | .hbm, ⟨18, _⟩ => ⟨S4x4096x256, .f32⟩
  | .hbm, ⟨19, _⟩ => ⟨S4x4096x256, .f32⟩
  | .hbm, ⟨20, _⟩ => ⟨S4x4096x256, .f32⟩
  | .hbm, ⟨21, _⟩ => ⟨S1x1x256, .f32⟩
  | .hbm, ⟨22, _⟩ => ⟨S4x4096x256, .f32⟩
  | .hbm, ⟨23, _⟩ => ⟨S4x4096x256, .f32⟩
  | .hbm, ⟨24, _⟩ => ⟨S4x4096x1, .f32⟩
  | .hbm, ⟨25, _⟩ => ⟨S4x4096x1, .f32⟩
  | .hbm, ⟨26, _⟩ => ⟨S4x4096, .f32⟩
  | .hbm, ⟨27, _⟩ => ⟨S4x1x4096, .f32⟩
  | .hbm, ⟨28, _⟩ => ⟨S4x4096x4096, .f32⟩
  | .hbm, ⟨29, _⟩ => ⟨S4x4096x4096, .f32⟩
  | .hbm, ⟨30, _⟩ => ⟨S4x4096x4096, .f32⟩
  | .hbm, ⟨31, _⟩ => ⟨S4x4096x4096, .f32⟩
  | .hbm, ⟨32, _⟩ => ⟨S4x4096x1, .f32⟩
  | .hbm, ⟨33, _⟩ => ⟨S4x4096x1, .f32⟩
  | .hbm, ⟨34, _⟩ => ⟨S4x4096, .f32⟩
  | .hbm, ⟨35, _⟩ => ⟨S4x1x4096, .f32⟩
  | .hbm, ⟨36, _⟩ => ⟨S4x4096x4096, .f32⟩
  | .hbm, ⟨37, _⟩ => ⟨S4x4096x4096, .f32⟩
  | .hbm, ⟨38, _⟩ => ⟨S4x4096x4096, .f32⟩
  | .hbm, ⟨39, _⟩ => ⟨S_, .f32⟩
  | .hbm, ⟨40, _⟩ => ⟨S4x4096x4096, .f32⟩
  | .hbm, ⟨41, _⟩ => ⟨S4x4096x4096, .i1⟩
  | .hbm, ⟨42, _⟩ => ⟨S_, .f32⟩
  | .hbm, ⟨43, _⟩ => ⟨S4x4096x4096, .f32⟩
  | .hbm, ⟨44, _⟩ => ⟨S4x4096x4096, .i1⟩
  | .hbm, ⟨45, _⟩ => ⟨S4x4096x4096, .i1⟩
  | .hbm, ⟨46, _⟩ => ⟨S_, .f32⟩
  | .hbm, ⟨47, _⟩ => ⟨S4x4096x4096, .f32⟩
  | .hbm, ⟨48, _⟩ => ⟨S4x4096x4096, .i1⟩
  | .hbm, ⟨49, _⟩ => ⟨S4x4096x4096, .i1⟩
  | .hbm, ⟨50, _⟩ => ⟨S4x4096x4096, .f32⟩
  | .hbm, ⟨51, _⟩ => ⟨S_, .f32⟩
  | .hbm, ⟨52, _⟩ => ⟨S4x4096x4096, .f32⟩
  | .hbm, ⟨53, _⟩ => ⟨S4x4096x4096, .f32⟩
  | .hbm, ⟨54, _⟩ => ⟨S_, .f32⟩
  | .hbm, ⟨55, _⟩ => ⟨S4x4096x4096, .f32⟩
  | .hbm, ⟨56, _⟩ => ⟨S4x4096x4096, .f32⟩
  | .hbm, ⟨57, _⟩ => ⟨S_, .f32⟩
  | .hbm, ⟨58, _⟩ => ⟨S4x4096, .f32⟩
  | .hbm, ⟨59, _⟩ => ⟨S_, .f32⟩
  | .hbm, ⟨60, _⟩ => ⟨S4x4096, .f32⟩
  | .hbm, ⟨61, _⟩ => ⟨S4x4096, .f32⟩
  | .hbm, ⟨62, _⟩ => ⟨S4x4096x1, .f32⟩
  | .hbm, ⟨63, _⟩ => ⟨S4x4096x4096, .f32⟩
  | .hbm, ⟨64, _⟩ => ⟨S4x4096x4096, .f32⟩
  | .hbm, ⟨65, _⟩ => ⟨S4x4096x4096, .f32⟩
  | .hbm, ⟨66, _⟩ => ⟨S_, .f32⟩
  | .hbm, ⟨67, _⟩ => ⟨S4x4096, .f32⟩
  | .hbm, ⟨68, _⟩ => ⟨S4x4096x1, .f32⟩
  | .hbm, ⟨69, _⟩ => ⟨S4x4096x4096, .f32⟩
  | .hbm, ⟨70, _⟩ => ⟨S4x4096x4096, .f32⟩
  | .hbm, ⟨71, _⟩ => ⟨S4x4096x256, .f32⟩
  | .hbm, ⟨72, _⟩ => ⟨S4x4096x4096, .f32⟩
  | .hbm, ⟨73, _⟩ => ⟨S_, .f32⟩
  | .hbm, ⟨74, _⟩ => ⟨S4x4096, .f32⟩
  | .hbm, ⟨75, _⟩ => ⟨S4x4096x1, .f32⟩
  | .hbm, ⟨76, _⟩ => ⟨S_, .i1⟩
  | .hbm, ⟨77, _⟩ => ⟨S4x4096, .i1⟩
  | .hbm, ⟨78, _⟩ => ⟨S4x4096x1, .i1⟩
  | .hbm, ⟨79, _⟩ => ⟨S4x4096x1, .f32⟩
  | .hbm, ⟨80, _⟩ => ⟨S4x4096x256, .f32⟩
  | .hbm, ⟨81, _⟩ => ⟨S1x1x256, .f32⟩
  | .hbm, ⟨82, _⟩ => ⟨S4x4096x256, .f32⟩
  | .hbm, ⟨83, _⟩ => ⟨S4x4096x256, .f32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst : Ref sig .tc := ⟨.hbm, 39, rfl⟩
abbrev main_v27 : Ref sig .tc := ⟨.hbm, 40, rfl⟩
abbrev main_v28 : Ref sig .tc := ⟨.hbm, 41, rfl⟩
abbrev main_cst_0 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_1 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_2 : Ref sig .tc := ⟨.hbm, 51, rfl⟩
abbrev main_v36 : Ref sig .tc := ⟨.hbm, 52, rfl⟩
abbrev main_v37 : Ref sig .tc := ⟨.hbm, 53, rfl⟩
abbrev main_cst_3 : Ref sig .tc := ⟨.hbm, 54, rfl⟩
abbrev main_call0_v0 : Ref sig .tc := ⟨.hbm, 55, rfl⟩
abbrev main_v38 : Ref sig .tc := ⟨.hbm, 56, rfl⟩
abbrev main_cst_4 : Ref sig .tc := ⟨.hbm, 57, rfl⟩
abbrev main_v39 : Ref sig .tc := ⟨.hbm, 58, rfl⟩
abbrev main_cst_5 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_6 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_7 : Ref sig .tc := ⟨.hbm, 73, rfl⟩
abbrev main_v52 : Ref sig .tc := ⟨.hbm, 74, rfl⟩
abbrev main_v53 : Ref sig .tc := ⟨.hbm, 75, rfl⟩
abbrev main_c : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S4x4096x256_0_1_2 : S1x1x256.BroadcastsInDim S4x4096x256 (![0, 1, 2] : Fin 3 → Fin S4x4096x256.rank)
  slices_S4x4096x2_S4x4096x1_0_0_1 : S4x4096x2.Slices ![0, 0, 1] S4x4096x1
  shapeCasts_S4x4096x1_S4x4096 : S4x4096x1.ShapeCasts S4x4096
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  slices_S4x4096x2_S4x4096x1_0_0_0 : S4x4096x2.Slices ![0, 0, 0] S4x4096x1
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  dot_S4x4096x256_S256x256_S4x4096x256_2_1_01_0_n_n_wf : DotDims.WF S4x4096x256 S256x256 S4x4096x256 [2] [1] [0, 1] [0] [] []
  dot_S4x4096x256_S4x4096x256_S4x4096x4096_2_2_1_1_0_0_wf : DotDims.WF S4x4096x256 S4x4096x256 S4x4096x4096 [2] [2] [1] [1] [0] [0]
  dot_S4x4096x4096_S4x4096x256_S4x4096x256_2_1_1_2_0_0_wf : DotDims.WF S4x4096x4096 S4x4096x256 S4x4096x256 [2] [1] [1] [2] [0] [0]

variable [Facts₀]

def dot_S4x4096x256_S256x256_S4x4096x256_2_1_01_0_n_n : DotDims S4x4096x256 S256x256 S4x4096x256 where
  lhsContracting := [2]
  rhsContracting := [1]
  lhsNonContracting := [0, 1]
  rhsNonContracting := [0]
  lhsBatch := []
  rhsBatch := []
  wf := dot_S4x4096x256_S256x256_S4x4096x256_2_1_01_0_n_n_wf
def dot_S4x4096x256_S4x4096x256_S4x4096x4096_2_2_1_1_0_0 : DotDims S4x4096x256 S4x4096x256 S4x4096x4096 where
  lhsContracting := [2]
  rhsContracting := [2]
  lhsNonContracting := [1]
  rhsNonContracting := [1]
  lhsBatch := [0]
  rhsBatch := [0]
  wf := dot_S4x4096x256_S4x4096x256_S4x4096x4096_2_2_1_1_0_0_wf
def dot_S4x4096x4096_S4x4096x256_S4x4096x256_2_1_1_2_0_0 : DotDims S4x4096x4096 S4x4096x256 S4x4096x256 where
  lhsContracting := [2]
  rhsContracting := [1]
  lhsNonContracting := [1]
  rhsNonContracting := [2]
  lhsBatch := [0]
  rhsBatch := [0]
  wf := dot_S4x4096x4096_S4x4096x256_S4x4096x256_2_1_1_2_0_0_wf

class Facts : Prop extends Facts₀ where

variable [Facts]
-- ==== Proof.LibPointRows.lean ====
/-
  Reading one coordinate of an array of planar points.

  An array of points `[G, n, 2]` holds the two coordinates of point `(g, j)` at `(g, j, 0)` and `(g, j, 1)`. Cutting
  coordinate `e` out of it gives `[G, n, 1]`; flattening that to `[G, n]` and laying it out along a new middle axis
  gives `[G, 1, n]`, a row of coordinates per `g`. The two lemmas read these layouts back at an index written by its
  coordinates: whatever the layout, the entry is coordinate `e` of the point.
-/
import Idealize.ShloMosaic.Lib.Pipeline.Value
import Idealize.ShloMosaic.Lib.ValueIdx

noncomputable section

namespace Cert.PointRows

open Idealize.ShloMosaic Idealize.ShloMosaic.ValueIdx

variable {α : Type} {G n : ℕ}

/-- Coordinate `e` of the points, cut out as `[G, n, 1]`: at `(g, j, u)` it is coordinate `e` of point `(g, j)`. -/
theorem coordCol_apply (x : (⟨3, ![G, n, 2]⟩ : Shape).Idx → α) (o : ℕ) (e : Fin 2) (he : e.val = o)
    (hsl : (⟨3, ![G, n, 2]⟩ : Shape).Slices ![0, 0, o] ⟨3, ![G, n, 1]⟩) (g : Fin G) (j : Fin n) (u : Fin 1) :
    extractStridedSlice ⟨3, ![G, n, 1]⟩ ![0, 0, o] x hsl (ix3 g j u) = x (ix3 g j e) :=
  extractStridedSlice_apply _ x hsl (ix3 g j u) (ix3 g j e) (fun a => match a with
    | ⟨0, _⟩ => by show g.val = 0 + g.val; omega
    | ⟨1, _⟩ => by show j.val = 0 + j.val; omega
    | ⟨2, _⟩ => by show e.val = o + u.val; omega)

/-- Coordinate `e` of the points, cut out, flattened to `[G, n]` and laid out as `[G, 1, n]`: at `(g, u, j)` it is
    coordinate `e` of point `(g, j)` (for `G` and `n` other than one, where no axis is stretched). -/
theorem coordRow_apply (hG : G ≠ 1) (hn : n ≠ 1) (x : (⟨3, ![G, n, 2]⟩ : Shape).Idx → α) (o : ℕ) (e : Fin 2) (he : e.val = o)
    (hsl : (⟨3, ![G, n, 2]⟩ : Shape).Slices ![0, 0, o] ⟨3, ![G, n, 1]⟩)
    (hsc : (⟨3, ![G, n, 1]⟩ : Shape).ShapeCasts ⟨2, ![G, n]⟩)
    (hbc : (⟨2, ![G, n]⟩ : Shape).BroadcastsInDim ⟨3, ![G, 1, n]⟩ ![0, 2])
    (g : Fin G) (u : Fin 1) (j : Fin n) :
    broadcastInDim ⟨3, ![G, 1, n]⟩ ![0, 2] hbc
        (shapeCast ⟨2, ![G, n]⟩ (extractStridedSlice ⟨3, ![G, n, 1]⟩ ![0, 0, o] x hsl) hsc) (ix3 g u j)
      = x (ix3 g j e) := by
  refine (broadcastInDim_apply _ hbc _ (ix3 g u j) (ix2 g j) (fun a => ?_)).trans ?_
  · match a with
    | ⟨0, _⟩ => show g.val = if G = 1 then 0 else g.val; rw [if_neg hG]
    | ⟨1, _⟩ => show j.val = if n = 1 then 0 else j.val; rw [if_neg hn]
  refine (shapeCast_apply _ hsc (ix2 g j) (ix3 g j (0 : Fin 1)) ?_).trans ?_
  · rw [Shape.rowMajor_val_three, Shape.rowMajor_val_two]
    show (g.val * n + j.val) * 1 + 0 = g.val * n + j.val
    omega
  exact coordCol_apply x o e he hsl g j (0 : Fin 1)

end Cert.PointRows

end
-- ==== Proof.Blocks.lean ====
/-
  The blocks a grid point stages, read as entries of the whole arrays.

  The grid has 4 × 16 points: point `t` works on batch `t / 16` and on the 256 left rows `256 · (t mod 16) + q`. The
  left features, the left points and the four outputs move with both coordinates; the right features and the right
  points' two coordinate rows move with the batch alone; the four weight matrices and their biases are whole. The
  right points' coordinates reach the region as two arrays [4, 1, 4096] that the program cuts out of the point array
  before the region, and each bias as a row [1, 256]: the lemmas here read those through to the arguments.
-/
import proofs.«126372_j19327352832529_2_alg».proof.Proof.Gen.KernelIdeal.Value
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic
import proofs.«126372_j19327352832529_2_alg».proof.Proof.LibPointRows

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ) (c : Dev nD)

theorem N64 : cfg0.N = 64 := N_0

/-- The batch a point works on. -/
def bat (t : Fin cfg0.N) : Fin 4 := ⟨t.val / 16, by have h : t.val < 64 := lt_of_lt_of_eq t.isLt N64; omega⟩

/-- The left row behind row `q` of a point's block. -/
def row (t : Fin cfg0.N) (q : Fin 256) : Fin 4096 := ⟨256 * (t.val % 16) + q.val, by have := q.isLt; omega⟩

/-- The printed index maps, decided over the 64 points. -/
theorem idx_moving : ∀ t : Fin cfg0.N,
    (win0_0.index t (0 : Fin 3) = t.val / 16 ∧ win0_0.index t (1 : Fin 3) = t.val % 16 ∧ win0_0.index t (2 : Fin 3) = 0)
    ∧ (win0_1.index t (0 : Fin 3) = t.val / 16 ∧ win0_1.index t (1 : Fin 3) = 0 ∧ win0_1.index t (2 : Fin 3) = 0)
    ∧ (win0_2.index t (0 : Fin 3) = t.val / 16 ∧ win0_2.index t (1 : Fin 3) = t.val % 16 ∧ win0_2.index t (2 : Fin 3) = 0)
    ∧ (win0_3.index t (0 : Fin 3) = t.val / 16 ∧ win0_3.index t (1 : Fin 3) = 0 ∧ win0_3.index t (2 : Fin 3) = 0)
    ∧ (win0_4.index t (0 : Fin 3) = t.val / 16 ∧ win0_4.index t (1 : Fin 3) = 0 ∧ win0_4.index t (2 : Fin 3) = 0) :=
  (by decide +kernel : ∀ t : Fin grid0.N, _)

theorem idx_whole : ∀ t : Fin cfg0.N,
    (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0) :=
  (by decide +kernel : ∀ t : Fin grid0.N, _)

theorem idx_out : ∀ t : Fin cfg0.N,
    (win0_13.index t (0 : Fin 3) = t.val / 16 ∧ win0_13.index t (1 : Fin 3) = t.val % 16 ∧ win0_13.index t (2 : Fin 3) = 0)
    ∧ (win0_14.index t (0 : Fin 3) = t.val / 16 ∧ win0_14.index t (1 : Fin 3) = t.val % 16 ∧ win0_14.index t (2 : Fin 3) = 0)
    ∧ (win0_15.index t (0 : Fin 3) = t.val / 16 ∧ win0_15.index t (1 : Fin 3) = t.val % 16 ∧ win0_15.index t (2 : Fin 3) = 0)
    ∧ (win0_16.index t (0 : Fin 3) = t.val / 16 ∧ win0_16.index t (1 : Fin 3) = t.val % 16 ∧ win0_16.index t (2 : Fin 3) = 0) :=
  (by decide +kernel : ∀ t : Fin grid0.N, _)

/-! ## The arrays the program lays out before the region -/

theorem rightU_eq : (V m c main_v2 : S4x1x4096.Idx → Ideal .f32)
    = broadcastInDim S4x1x4096 ![0, 2] bcast_S4x4096_S4x1x4096_0_2
        (shapeCast S4x4096 (extractStridedSlice S4x4096x1 ![0, 0, 0] (m ((c : Thread nD τ).loc main_arg3)) slices_S4x4096x2_S4x4096x1_0_0_0)
          shapeCasts_S4x4096x1_S4x4096) := by
  dsimp only [V, hostOps0]; after_results; rfl

theorem rightV_eq : (V m c main_v5 : S4x1x4096.Idx → Ideal .f32)
    = broadcastInDim S4x1x4096 ![0, 2] bcast_S4x4096_S4x1x4096_0_2
        (shapeCast S4x4096 (extractStridedSlice S4x4096x1 ![0, 0, 1] (m ((c : Thread nD τ).loc main_arg3)) slices_S4x4096x2_S4x4096x1_0_0_1)
          shapeCasts_S4x4096x1_S4x4096) := by
  dsimp only [V, hostOps0]; after_results; rfl

theorem biasQ_eq : (V m c main_v6 : S1x256.Idx → Ideal .f32) = shapeCast S1x256 (m ((c : Thread nD τ).loc main_arg5)) shapeCasts_S256_S1x256 := by
  dsimp only [V, hostOps0]; after_results; rfl
theorem biasK_eq : (V m c main_v7 : S1x256.Idx → Ideal .f32) = shapeCast S1x256 (m ((c : Thread nD τ).loc main_arg7)) shapeCasts_S256_S1x256 := by
  dsimp only [V, hostOps0]; after_results; rfl
theorem biasV_eq : (V m c main_v8 : S1x256.Idx → Ideal .f32) = shapeCast S1x256 (m ((c : Thread nD τ).loc main_arg9)) shapeCasts_S256_S1x256 := by
  dsimp only [V, hostOps0]; after_results; rfl
theorem biasM_eq : (V m c main_v9 : S1x256.Idx → Ideal .f32) = shapeCast S1x256 (m ((c : Thread nD τ).loc main_arg11)) shapeCasts_S256_S1x256 := by
  dsimp only [V, hostOps0]; after_results; rfl

/-! ## A point's input blocks, entry by entry -/

/-- Left features: row \`q\` of the block is left row \`256 · (t mod 16) + q\` of batch \`t / 16\`. -/
theorem leftFeat (t : Fin cfg0.N) (q : Fin 256) (e : Fin 256) :
    iblk m c 0 t (ix3 (0 : Fin 1) q e) = (m ((c : Thread nD τ).loc main_arg0)) (ix3 (bat t) (row t q) e) := by
  obtain ⟨h0, h1, h2, h3, h4⟩ := idx_moving t
  unfold iblk
  rw [View.read_apply]
  show V m c main_arg0 _ = _
  rw [V_main_arg0]
  refine congrArg _ (funext fun a => Fin.ext ?_)
  match a with
  | ⟨0, _⟩ => show win0_0.index t (0 : Fin 3) * 1 + 1 * 0 = t.val / 16; omega
  | ⟨1, _⟩ => show win0_0.index t (1 : Fin 3) * 256 + 1 * q.val = 256 * (t.val % 16) + q.val; omega
  | ⟨2, _⟩ => show win0_0.index t (2 : Fin 3) * 256 + 1 * e.val = e.val; omega

/-- Right features: the block is the whole batch \`t / 16\`. -/
theorem rightFeat (t : Fin cfg0.N) (q : Fin 4096) (e : Fin 256) :
    iblk m c 1 t (ix3 (0 : Fin 1) q e) = (m ((c : Thread nD τ).loc main_arg1)) (ix3 (bat t) q e) := by
  obtain ⟨h0, h1, h2, h3, h4⟩ := idx_moving t
  unfold iblk
  rw [View.read_apply]
  show V m c main_arg1 _ = _
  rw [V_main_arg1]
  refine congrArg _ (funext fun a => Fin.ext ?_)
  match a with
  | ⟨0, _⟩ => show win0_1.index t (0 : Fin 3) * 1 + 1 * 0 = t.val / 16; omega
  | ⟨1, _⟩ => show win0_1.index t (1 : Fin 3) * 4096 + 1 * q.val = q.val; omega
  | ⟨2, _⟩ => show win0_1.index t (2 : Fin 3) * 256 + 1 * e.val = e.val; omega

/-- Left points, the same rows as the left features. -/
theorem leftPts (t : Fin cfg0.N) (q : Fin 256) (e : Fin 2) :
    iblk m c 2 t (ix3 (0 : Fin 1) q e) = (m ((c : Thread nD τ).loc main_arg2)) (ix3 (bat t) (row t q) e) := by
  obtain ⟨h0, h1, h2, h3, h4⟩ := idx_moving t
  unfold iblk
  rw [View.read_apply]
  show V m c main_arg2 _ = _
  rw [V_main_arg2]
  refine congrArg _ (funext fun a => Fin.ext ?_)
  match a with
  | ⟨0, _⟩ => show win0_2.index t (0 : Fin 3) * 1 + 1 * 0 = t.val / 16; omega
  | ⟨1, _⟩ => show win0_2.index t (1 : Fin 3) * 256 + 1 * q.val = 256 * (t.val % 16) + q.val; omega
  | ⟨2, _⟩ => show win0_2.index t (2 : Fin 3) * 2 + 1 * e.val = e.val; omega

/-- The right points' first coordinates, a row per batch. -/
theorem rightPtsU (t : Fin cfg0.N) (j : Fin 4096) :
    iblk m c 3 t (ix3 (0 : Fin 1) (0 : Fin 1) j) = (m ((c : Thread nD τ).loc main_arg3)) (ix3 (bat t) j (0 : Fin 2)) := by
  obtain ⟨h0, h1, h2, h3, h4⟩ := idx_moving t
  unfold iblk
  rw [View.read_apply]
  show V m c main_v2 _ = _
  rw [rightU_eq m c]
  have hi : ((cfg0.win 3).blk t).view.emb (ix3 (0 : Fin 1) (0 : Fin 1) j) = ix3 (bat t) (0 : Fin 1) j := by
    funext a; apply Fin.ext
    match a with
    | ⟨0, _⟩ => show win0_3.index t (0 : Fin 3) * 1 + 1 * 0 = t.val / 16; omega
    | ⟨1, _⟩ => show win0_3.index t (1 : Fin 3) * 1 + 1 * 0 = 0; omega
    | ⟨2, _⟩ => show win0_3.index t (2 : Fin 3) * 4096 + 1 * j.val = j.val; omega
  rw [hi]
  exact Cert.PointRows.coordRow_apply (by decide) (by decide) _ 0 (0 : Fin 2) rfl _ _ _ (bat t) (0 : Fin 1) j

/-- The right points' second coordinates, a row per batch. -/
theorem rightPtsV (t : Fin cfg0.N) (j : Fin 4096) :
    iblk m c 4 t (ix3 (0 : Fin 1) (0 : Fin 1) j) = (m ((c : Thread nD τ).loc main_arg3)) (ix3 (bat t) j (1 : Fin 2)) := by
  obtain ⟨h0, h1, h2, h3, h4⟩ := idx_moving t
  unfold iblk
  rw [View.read_apply]
  show V m c main_v5 _ = _
  rw [rightV_eq m c]
  have hi : ((cfg0.win 4).blk t).view.emb (ix3 (0 : Fin 1) (0 : Fin 1) j) = ix3 (bat t) (0 : Fin 1) j := by
    funext a; apply Fin.ext
    match a with
    | ⟨0, _⟩ => show win0_4.index t (0 : Fin 3) * 1 + 1 * 0 = t.val / 16; omega
    | ⟨1, _⟩ => show win0_4.index t (1 : Fin 3) * 1 + 1 * 0 = 0; omega
    | ⟨2, _⟩ => show win0_4.index t (2 : Fin 3) * 4096 + 1 * j.val = j.val; omega
  rw [hi]
  exact Cert.PointRows.coordRow_apply (by decide) (by decide) _ 1 (1 : Fin 2) rfl _ _ _ (bat t) (0 : Fin 1) j

/-- The query weight, whole. -/
theorem wQ (t : Fin cfg0.N) (d e : Fin 256) : iblk m c 5 t (ix2 d e) = (m ((c : Thread nD τ).loc main_arg4)) (ix2 d e) := by
  obtain ⟨g5, g6, g7, g8, g9, g10, g11, g12⟩ := idx_whole t
  unfold iblk
  rw [View.read_apply]
  show V m c main_arg4 _ = _
  rw [V_main_arg4]
  refine congrArg _ (funext fun a => Fin.ext ?_)
  match a with
  | ⟨0, _⟩ => show win0_5.index t (0 : Fin 2) * 256 + 1 * d.val = d.val; omega
  | ⟨1, _⟩ => show win0_5.index t (1 : Fin 2) * 256 + 1 * e.val = e.val; omega

/-- The query bias, as a row. -/
theorem bQ (t : Fin cfg0.N) (d : Fin 256) : iblk m c 6 t (ix2 (0 : Fin 1) d) = (m ((c : Thread nD τ).loc main_arg5)) (ix1 d) := by
  obtain ⟨g5, g6, g7, g8, g9, g10, g11, g12⟩ := idx_whole t
  unfold iblk
  rw [View.read_apply]
  show V m c main_v6 _ = _
  rw [biasQ_eq m c]
  have hi : ((cfg0.win 6).blk t).view.emb (ix2 (0 : Fin 1) d) = ix2 (0 : Fin 1) d := by
    funext a; apply Fin.ext
    match a with
    | ⟨0, _⟩ => show win0_6.index t (0 : Fin 2) * 1 + 1 * 0 = 0; omega
    | ⟨1, _⟩ => show win0_6.index t (1 : Fin 2) * 256 + 1 * d.val = d.val; omega
  rw [hi]
  exact shapeCast_a_1a_apply _ _ (0 : Fin 1) d

/-- The key weight, whole. -/
theorem wK (t : Fin cfg0.N) (d e : Fin 256) : iblk m c 7 t (ix2 d e) = (m ((c : Thread nD τ).loc main_arg6)) (ix2 d e) := by
  obtain ⟨g5, g6, g7, g8, g9, g10, g11, g12⟩ := idx_whole t
  unfold iblk
  rw [View.read_apply]
  show V m c main_arg6 _ = _
  rw [V_main_arg6]
  refine congrArg _ (funext fun a => Fin.ext ?_)
  match a with
  | ⟨0, _⟩ => show win0_7.index t (0 : Fin 2) * 256 + 1 * d.val = d.val; omega
  | ⟨1, _⟩ => show win0_7.index t (1 : Fin 2) * 256 + 1 * e.val = e.val; omega

/-- The key bias, as a row. -/
theorem bK (t : Fin cfg0.N) (d : Fin 256) : iblk m c 8 t (ix2 (0 : Fin 1) d) = (m ((c : Thread nD τ).loc main_arg7)) (ix1 d) := by
  obtain ⟨g5, g6, g7, g8, g9, g10, g11, g12⟩ := idx_whole t
  unfold iblk
  rw [View.read_apply]
  show V m c main_v7 _ = _
  rw [biasK_eq m c]
  have hi : ((cfg0.win 8).blk t).view.emb (ix2 (0 : Fin 1) d) = ix2 (0 : Fin 1) d := by
    funext a; apply Fin.ext
    match a with
    | ⟨0, _⟩ => show win0_8.index t (0 : Fin 2) * 1 + 1 * 0 = 0; omega
    | ⟨1, _⟩ => show win0_8.index t (1 : Fin 2) * 256 + 1 * d.val = d.val; omega
  rw [hi]
  exact shapeCast_a_1a_apply _ _ (0 : Fin 1) d

/-- The value weight, whole. -/
theorem wV (t : Fin cfg0.N) (d e : Fin 256) : iblk m c 9 t (ix2 d e) = (m ((c : Thread nD τ).loc main_arg8)) (ix2 d e) := by
  obtain ⟨g5, g6, g7, g8, g9, g10, g11, g12⟩ := idx_whole t
  unfold iblk
  rw [View.read_apply]
  show V m c main_arg8 _ = _
  rw [V_main_arg8]
  refine congrArg _ (funext fun a => Fin.ext ?_)
  match a with
  | ⟨0, _⟩ => show win0_9.index t (0 : Fin 2) * 256 + 1 * d.val = d.val; omega
  | ⟨1, _⟩ => show win0_9.index t (1 : Fin 2) * 256 + 1 * e.val = e.val; omega

/-- The value bias, as a row. -/
theorem bV (t : Fin cfg0.N) (d : Fin 256) : iblk m c 10 t (ix2 (0 : Fin 1) d) = (m ((c : Thread nD τ).loc main_arg9)) (ix1 d) := by
  obtain ⟨g5, g6, g7, g8, g9, g10, g11, g12⟩ := idx_whole t
  unfold iblk
  rw [View.read_apply]
  show V m c main_v8 _ = _
  rw [biasV_eq m c]
  have hi : ((cfg0.win 10).blk t).view.emb (ix2 (0 : Fin 1) d) = ix2 (0 : Fin 1) d := by
    funext a; apply Fin.ext
    match a with
    | ⟨0, _⟩ => show win0_10.index t (0 : Fin 2) * 1 + 1 * 0 = 0; omega
    | ⟨1, _⟩ => show win0_10.index t (1 : Fin 2) * 256 + 1 * d.val = d.val; omega
  rw [hi]
  exact shapeCast_a_1a_apply _ _ (0 : Fin 1) d

/-- The output weight, whole. -/
theorem wM (t : Fin cfg0.N) (d e : Fin 256) : iblk m c 11 t (ix2 d e) = (m ((c : Thread nD τ).loc main_arg10)) (ix2 d e) := by
  obtain ⟨g5, g6, g7, g8, g9, g10, g11, g12⟩ := idx_whole t
  unfold iblk
  rw [View.read_apply]
  show V m c main_arg10 _ = _
  rw [V_main_arg10]
  refine congrArg _ (funext fun a => Fin.ext ?_)
  match a with
  | ⟨0, _⟩ => show win0_11.index t (0 : Fin 2) * 256 + 1 * d.val = d.val; omega
  | ⟨1, _⟩ => show win0_11.index t (1 : Fin 2) * 256 + 1 * e.val = e.val; omega

/-- The output bias, as a row. -/
theorem bM (t : Fin cfg0.N) (d : Fin 256) : iblk m c 12 t (ix2 (0 : Fin 1) d) = (m ((c : Thread nD τ).loc main_arg11)) (ix1 d) := by
  obtain ⟨g5, g6, g7, g8, g9, g10, g11, g12⟩ := idx_whole t
  unfold iblk
  rw [View.read_apply]
  show V m c main_v9 _ = _
  rw [biasM_eq m c]
  have hi : ((cfg0.win 12).blk t).view.emb (ix2 (0 : Fin 1) d) = ix2 (0 : Fin 1) d := by
    funext a; apply Fin.ext
    match a with
    | ⟨0, _⟩ => show win0_12.index t (0 : Fin 2) * 1 + 1 * 0 = 0; omega
    | ⟨1, _⟩ => show win0_12.index t (1 : Fin 2) * 256 + 1 * d.val = d.val; omega
  rw [hi]
  exact shapeCast_a_1a_apply _ _ (0 : Fin 1) d

end Cert.KernelIdeal.Blocks

end
-- ==== Proof.Pieces.lean ====
/-
  What one grid point's body leaves in each output block and in the two carried buffers, as values.

  The body runs in two cases. At the first point of a batch it projects the batch's right features to keys and values,
  keeps them in two buffers that outlive the point, and computes its four output blocks from the keys and values it has
  just stored. At every later point of the batch it stores nothing there and computes the same four blocks from the
  keys and values the point before left. Each lemma says that what a case leaves in a block is the block's arithmetic
  applied to the blocks the point loaded (and, in the second case, to the carried keys and values).
-/
import proofs.«126372_j19327352832529_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- The block of attention weights a point computes from its left features `x0`, its left points `x2`, the right
    points' two coordinate rows `x3`, `x4`, the query projection `x5`, `x6` and the projected keys `ks`. -/
def attnBlk (x0 : Vec F S1x256x256 .f32) (x2 : Vec F S1x256x2 .f32) (x3 x4 : Vec F S1x1x4096 .f32) (x5 : Vec F S256x256 .f32)
    (x6 : Vec F S1x256 .f32) (ks : Vec F S4096x256 .f32) : Vec F S1x256x4096 .f32 :=
  k0_pay14 (k0_pay6 x0 x5 x6 ks) (k0_pay8 x2 x4) (k0_pay9 x2) (k0_pay10 x3)

/-- The block of output features: the weights against the projected values `vs`, through the last layer `x11`, `x12`. -/
def outBlk (x0 : Vec F S1x256x256 .f32) (x2 : Vec F S1x256x2 .f32) (x3 x4 : Vec F S1x1x4096 .f32) (x5 : Vec F S256x256 .f32)
    (x6 : Vec F S1x256 .f32) (x11 : Vec F S256x256 .f32) (x12 : Vec F S1x256 .f32) (ks : Vec F S4096x256 .f32)
    (vs : Vec F S4096x256 .bf16) : Vec F S1x256x256 .f32 :=
  k0_pay15 vs (k0_pay6 x0 x5 x6 ks) (k0_pay8 x2 x4) (k0_pay9 x2) (k0_pay10 x3) x11 x12

/-- The block of weighted first-coordinate differences. -/
def dispBlk (x0 : Vec F S1x256x256 .f32) (x2 : Vec F S1x256x2 .f32) (x3 x4 : Vec F S1x1x4096 .f32) (x5 : Vec F S256x256 .f32)
    (x6 : Vec F S1x256 .f32) (ks : Vec F S4096x256 .f32) : Vec F S1x256x1 .f32 :=
  k0_pay1 (k0_pay16 (k0_pay6 x0 x5 x6 ks) (k0_pay8 x2 x4) (k0_pay9 x2) (k0_pay10 x3))

/-- The block of "some pair kept" flags. -/
def confBlk (x2 : Vec F S1x256x2 .f32) (x3 x4 : Vec F S1x1x4096 .f32) : Vec F S1x256x1 .f32 :=
  k0_pay2 (F := F) (k0_pay12 (k0_pay8 x2 x4) (k0_pay9 x2) (k0_pay10 x3))

/-! ## A first point of a batch: the keys and values are projected there, and the four blocks read them back -/

theorem sout0_A_0_eq (c : Dev nD) (i : grid0.Coords) (arg2 : Memref sig .tc .vmem S1x256x256 .f32) (harg2 : arg2.IsWhole) (arg3 : Memref sig .tc .vmem S1x4096x256 .f32) (harg3 : arg3.IsWhole) (arg4 : Memref sig .tc .vmem S1x256x2 .f32) (harg4 : arg4.IsWhole) (arg5 : Memref sig .tc .vmem S1x1x4096 .f32) (harg5 : arg5.IsWhole) (arg6 : Memref sig .tc .vmem S1x1x4096 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S256x256 .f32) (harg11 : arg11.IsWhole) (arg12 : Memref sig .tc .vmem S1x256 .f32) (harg12 : arg12.IsWhole) (arg13 : Memref sig .tc .vmem S256x256 .f32) (harg13 : arg13.IsWhole) (arg14 : Memref sig .tc .vmem S1x256 .f32) (harg14 : arg14.IsWhole) (arg15 : Memref sig .tc .vmem S1x256x4096 .f32) (harg15 : arg15.IsWhole) (arg16 : Memref sig .tc .vmem S1x256x256 .f32) (harg16 : arg16.IsWhole) (arg17 : Memref sig .tc .vmem S1x256x1 .f32) (harg17 : arg17.IsWhole) (arg18 : Memref sig .tc .vmem S1x256x1 .f32) (harg18 : arg18.IsWhole) (arg19 : Memref sig .tc .vmem S4096x256 .f32) (harg19 : arg19.IsWhole) (arg20 : Memref sig .tc .vmem S4096x256 .bf16) (harg20 : arg20.IsWhole) (hc0 : cond0_0 i) (x0 : Vec F S1x256x256 .f32) (x1 : Vec F S1x4096x256 .f32) (x2 : Vec F S1x256x2 .f32) (x3 : Vec F S1x1x4096 .f32) (x4 : Vec F S1x1x4096 .f32) (x5 : Vec F S256x256 .f32) (x6 : Vec F S1x256 .f32) (x7 : Vec F S256x256 .f32) (x8 : Vec F S1x256 .f32) (x9 : Vec F S256x256 .f32) (x10 : Vec F S1x256 .f32) (x11 : Vec F S256x256 .f32) (x12 : Vec F S1x256 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 = k0_pay4 x1 x7 x8 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12)]
  unfold kernelRun0_A
  dsimp only
  sl_unfold_words
  rw [View.canon_unit_zero hz2]
  try rw [View.readCov_unit_zero (S := S4096x256) _ hz2]
  try rw [View.readCov_unit_zero (S := S4096x256) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg19.read_unread, harg20.read_unread, View.ld_unit_zero (S := S1x256x256) hz3, View.ld_unit_zero (S := S1x4096x256) hz3, View.ld_unit_zero (S := S1x256x2) hz3, View.ld_unit_zero (S := S1x1x4096) hz3, View.ld_unit_zero (S := S256x256) hz2, View.ld_unit_zero (S := S1x256) hz2, View.ld_unit_zero (S := S4096x256) hz2]

theorem sout0_A_1_eq (c : Dev nD) (i : grid0.Coords) (arg2 : Memref sig .tc .vmem S1x256x256 .f32) (harg2 : arg2.IsWhole) (arg3 : Memref sig .tc .vmem S1x4096x256 .f32) (harg3 : arg3.IsWhole) (arg4 : Memref sig .tc .vmem S1x256x2 .f32) (harg4 : arg4.IsWhole) (arg5 : Memref sig .tc .vmem S1x1x4096 .f32) (harg5 : arg5.IsWhole) (arg6 : Memref sig .tc .vmem S1x1x4096 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S256x256 .f32) (harg11 : arg11.IsWhole) (arg12 : Memref sig .tc .vmem S1x256 .f32) (harg12 : arg12.IsWhole) (arg13 : Memref sig .tc .vmem S256x256 .f32) (harg13 : arg13.IsWhole) (arg14 : Memref sig .tc .vmem S1x256 .f32) (harg14 : arg14.IsWhole) (arg15 : Memref sig .tc .vmem S1x256x4096 .f32) (harg15 : arg15.IsWhole) (arg16 : Memref sig .tc .vmem S1x256x256 .f32) (harg16 : arg16.IsWhole) (arg17 : Memref sig .tc .vmem S1x256x1 .f32) (harg17 : arg17.IsWhole) (arg18 : Memref sig .tc .vmem S1x256x1 .f32) (harg18 : arg18.IsWhole) (arg19 : Memref sig .tc .vmem S4096x256 .f32) (harg19 : arg19.IsWhole) (arg20 : Memref sig .tc .vmem S4096x256 .bf16) (harg20 : arg20.IsWhole) (hc0 : cond0_0 i) (x0 : Vec F S1x256x256 .f32) (x1 : Vec F S1x4096x256 .f32) (x2 : Vec F S1x256x2 .f32) (x3 : Vec F S1x1x4096 .f32) (x4 : Vec F S1x1x4096 .f32) (x5 : Vec F S256x256 .f32) (x6 : Vec F S1x256 .f32) (x7 : Vec F S256x256 .f32) (x8 : Vec F S1x256 .f32) (x9 : Vec F S256x256 .f32) (x10 : Vec F S1x256 .f32) (x11 : Vec F S256x256 .f32) (x12 : Vec F S1x256 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 = k0_pay5 x1 x9 x10 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12)]
  unfold kernelRun0_A
  dsimp only
  sl_unfold_words
  rw [View.canon_unit_zero hz2]
  try rw [View.readCov_unit_zero (S := S4096x256) _ hz2]
  try rw [View.readCov_unit_zero (S := S4096x256) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg19.read_unread, harg20.read_unread, View.ld_unit_zero (S := S1x256x256) hz3, View.ld_unit_zero (S := S1x4096x256) hz3, View.ld_unit_zero (S := S1x256x2) hz3, View.ld_unit_zero (S := S1x1x4096) hz3, View.ld_unit_zero (S := S256x256) hz2, View.ld_unit_zero (S := S1x256) hz2, View.ld_unit_zero (S := S4096x256) hz2]

theorem out0_A_13_eq (c : Dev nD) (i : grid0.Coords) (arg2 : Memref sig .tc .vmem S1x256x256 .f32) (harg2 : arg2.IsWhole) (arg3 : Memref sig .tc .vmem S1x4096x256 .f32) (harg3 : arg3.IsWhole) (arg4 : Memref sig .tc .vmem S1x256x2 .f32) (harg4 : arg4.IsWhole) (arg5 : Memref sig .tc .vmem S1x1x4096 .f32) (harg5 : arg5.IsWhole) (arg6 : Memref sig .tc .vmem S1x1x4096 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S256x256 .f32) (harg11 : arg11.IsWhole) (arg12 : Memref sig .tc .vmem S1x256 .f32) (harg12 : arg12.IsWhole) (arg13 : Memref sig .tc .vmem S256x256 .f32) (harg13 : arg13.IsWhole) (arg14 : Memref sig .tc .vmem S1x256 .f32) (harg14 : arg14.IsWhole) (arg15 : Memref sig .tc .vmem S1x256x4096 .f32) (harg15 : arg15.IsWhole) (arg16 : Memref sig .tc .vmem S1x256x256 .f32) (harg16 : arg16.IsWhole) (arg17 : Memref sig .tc .vmem S1x256x1 .f32) (harg17 : arg17.IsWhole) (arg18 : Memref sig .tc .vmem S1x256x1 .f32) (harg18 : arg18.IsWhole) (arg19 : Memref sig .tc .vmem S4096x256 .f32) (harg19 : arg19.IsWhole) (arg20 : Memref sig .tc .vmem S4096x256 .bf16) (harg20 : arg20.IsWhole) (hc0 : cond0_0 i) (x0 : Vec F S1x256x256 .f32) (x1 : Vec F S1x4096x256 .f32) (x2 : Vec F S1x256x2 .f32) (x3 : Vec F S1x1x4096 .f32) (x4 : Vec F S1x1x4096 .f32) (x5 : Vec F S256x256 .f32) (x6 : Vec F S1x256 .f32) (x7 : Vec F S256x256 .f32) (x8 : Vec F S1x256 .f32) (x9 : Vec F S256x256 .f32) (x10 : Vec F S1x256 .f32) (x11 : Vec F S256x256 .f32) (x12 : Vec F S1x256 .f32) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 = attnBlk x0 x2 x3 x4 x5 x6 (k0_pay4 x1 x7 x8) := by
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12)]
  unfold kernelRun0_A
  dsimp only
  sl_unfold_words
  rw [View.canon_unit_zero hz3]
  try rw [View.readCov_unit_zero (S := S4096x256) _ hz2]
  try rw [View.readCov_unit_zero (S := S4096x256) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg19.read_unread, harg20.read_unread, View.ld_unit_zero (S := S1x256x256) hz3, View.ld_unit_zero (S := S1x4096x256) hz3, View.ld_unit_zero (S := S1x256x2) hz3, View.ld_unit_zero (S := S1x1x4096) hz3, View.ld_unit_zero (S := S256x256) hz2, View.ld_unit_zero (S := S1x256) hz2, View.ld_unit_zero (S := S4096x256) hz2]
  rfl

theorem out0_A_14_eq (c : Dev nD) (i : grid0.Coords) (arg2 : Memref sig .tc .vmem S1x256x256 .f32) (harg2 : arg2.IsWhole) (arg3 : Memref sig .tc .vmem S1x4096x256 .f32) (harg3 : arg3.IsWhole) (arg4 : Memref sig .tc .vmem S1x256x2 .f32) (harg4 : arg4.IsWhole) (arg5 : Memref sig .tc .vmem S1x1x4096 .f32) (harg5 : arg5.IsWhole) (arg6 : Memref sig .tc .vmem S1x1x4096 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S256x256 .f32) (harg11 : arg11.IsWhole) (arg12 : Memref sig .tc .vmem S1x256 .f32) (harg12 : arg12.IsWhole) (arg13 : Memref sig .tc .vmem S256x256 .f32) (harg13 : arg13.IsWhole) (arg14 : Memref sig .tc .vmem S1x256 .f32) (harg14 : arg14.IsWhole) (arg15 : Memref sig .tc .vmem S1x256x4096 .f32) (harg15 : arg15.IsWhole) (arg16 : Memref sig .tc .vmem S1x256x256 .f32) (harg16 : arg16.IsWhole) (arg17 : Memref sig .tc .vmem S1x256x1 .f32) (harg17 : arg17.IsWhole) (arg18 : Memref sig .tc .vmem S1x256x1 .f32) (harg18 : arg18.IsWhole) (arg19 : Memref sig .tc .vmem S4096x256 .f32) (harg19 : arg19.IsWhole) (arg20 : Memref sig .tc .vmem S4096x256 .bf16) (harg20 : arg20.IsWhole) (hc0 : cond0_0 i) (x0 : Vec F S1x256x256 .f32) (x1 : Vec F S1x4096x256 .f32) (x2 : Vec F S1x256x2 .f32) (x3 : Vec F S1x1x4096 .f32) (x4 : Vec F S1x1x4096 .f32) (x5 : Vec F S256x256 .f32) (x6 : Vec F S1x256 .f32) (x7 : Vec F S256x256 .f32) (x8 : Vec F S1x256 .f32) (x9 : Vec F S256x256 .f32) (x10 : Vec F S1x256 .f32) (x11 : Vec F S256x256 .f32) (x12 : Vec F S1x256 .f32) :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 = outBlk x0 x2 x3 x4 x5 x6 x11 x12 (k0_pay4 x1 x7 x8) (k0_pay5 x1 x9 x10) := by
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12)]
  unfold kernelRun0_A
  dsimp only
  sl_unfold_words
  rw [View.canon_unit_zero hz3]
  try rw [View.readCov_unit_zero (S := S4096x256) _ hz2]
  try rw [View.readCov_unit_zero (S := S4096x256) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg19.read_unread, harg20.read_unread, View.ld_unit_zero (S := S1x256x256) hz3, View.ld_unit_zero (S := S1x4096x256) hz3, View.ld_unit_zero (S := S1x256x2) hz3, View.ld_unit_zero (S := S1x1x4096) hz3, View.ld_unit_zero (S := S256x256) hz2, View.ld_unit_zero (S := S1x256) hz2, View.ld_unit_zero (S := S4096x256) hz2]
  rfl

theorem out0_A_15_eq (c : Dev nD) (i : grid0.Coords) (arg2 : Memref sig .tc .vmem S1x256x256 .f32) (harg2 : arg2.IsWhole) (arg3 : Memref sig .tc .vmem S1x4096x256 .f32) (harg3 : arg3.IsWhole) (arg4 : Memref sig .tc .vmem S1x256x2 .f32) (harg4 : arg4.IsWhole) (arg5 : Memref sig .tc .vmem S1x1x4096 .f32) (harg5 : arg5.IsWhole) (arg6 : Memref sig .tc .vmem S1x1x4096 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S256x256 .f32) (harg11 : arg11.IsWhole) (arg12 : Memref sig .tc .vmem S1x256 .f32) (harg12 : arg12.IsWhole) (arg13 : Memref sig .tc .vmem S256x256 .f32) (harg13 : arg13.IsWhole) (arg14 : Memref sig .tc .vmem S1x256 .f32) (harg14 : arg14.IsWhole) (arg15 : Memref sig .tc .vmem S1x256x4096 .f32) (harg15 : arg15.IsWhole) (arg16 : Memref sig .tc .vmem S1x256x256 .f32) (harg16 : arg16.IsWhole) (arg17 : Memref sig .tc .vmem S1x256x1 .f32) (harg17 : arg17.IsWhole) (arg18 : Memref sig .tc .vmem S1x256x1 .f32) (harg18 : arg18.IsWhole) (arg19 : Memref sig .tc .vmem S4096x256 .f32) (harg19 : arg19.IsWhole) (arg20 : Memref sig .tc .vmem S4096x256 .bf16) (harg20 : arg20.IsWhole) (hc0 : cond0_0 i) (x0 : Vec F S1x256x256 .f32) (x1 : Vec F S1x4096x256 .f32) (x2 : Vec F S1x256x2 .f32) (x3 : Vec F S1x1x4096 .f32) (x4 : Vec F S1x1x4096 .f32) (x5 : Vec F S256x256 .f32) (x6 : Vec F S1x256 .f32) (x7 : Vec F S256x256 .f32) (x8 : Vec F S1x256 .f32) (x9 : Vec F S256x256 .f32) (x10 : Vec F S1x256 .f32) (x11 : Vec F S256x256 .f32) (x12 : Vec F S1x256 .f32) :
    out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 = dispBlk x0 x2 x3 x4 x5 x6 (k0_pay4 x1 x7 x8) := by
  unfold out0_A_15
  rw [View.read_writes_eq_canon _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12)]
  unfold kernelRun0_A
  dsimp only
  sl_unfold_words
  rw [View.canon_unit_zero hz3]
  try rw [View.readCov_unit_zero (S := S4096x256) _ hz2]
  try rw [View.readCov_unit_zero (S := S4096x256) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg19.read_unread, harg20.read_unread, View.ld_unit_zero (S := S1x256x256) hz3, View.ld_unit_zero (S := S1x4096x256) hz3, View.ld_unit_zero (S := S1x256x2) hz3, View.ld_unit_zero (S := S1x1x4096) hz3, View.ld_unit_zero (S := S256x256) hz2, View.ld_unit_zero (S := S1x256) hz2, View.ld_unit_zero (S := S4096x256) hz2]
  rfl

theorem out0_A_16_eq (c : Dev nD) (i : grid0.Coords) (arg2 : Memref sig .tc .vmem S1x256x256 .f32) (harg2 : arg2.IsWhole) (arg3 : Memref sig .tc .vmem S1x4096x256 .f32) (harg3 : arg3.IsWhole) (arg4 : Memref sig .tc .vmem S1x256x2 .f32) (harg4 : arg4.IsWhole) (arg5 : Memref sig .tc .vmem S1x1x4096 .f32) (harg5 : arg5.IsWhole) (arg6 : Memref sig .tc .vmem S1x1x4096 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S256x256 .f32) (harg11 : arg11.IsWhole) (arg12 : Memref sig .tc .vmem S1x256 .f32) (harg12 : arg12.IsWhole) (arg13 : Memref sig .tc .vmem S256x256 .f32) (harg13 : arg13.IsWhole) (arg14 : Memref sig .tc .vmem S1x256 .f32) (harg14 : arg14.IsWhole) (arg15 : Memref sig .tc .vmem S1x256x4096 .f32) (harg15 : arg15.IsWhole) (arg16 : Memref sig .tc .vmem S1x256x256 .f32) (harg16 : arg16.IsWhole) (arg17 : Memref sig .tc .vmem S1x256x1 .f32) (harg17 : arg17.IsWhole) (arg18 : Memref sig .tc .vmem S1x256x1 .f32) (harg18 : arg18.IsWhole) (arg19 : Memref sig .tc .vmem S4096x256 .f32) (harg19 : arg19.IsWhole) (arg20 : Memref sig .tc .vmem S4096x256 .bf16) (harg20 : arg20.IsWhole) (hc0 : cond0_0 i) (x0 : Vec F S1x256x256 .f32) (x1 : Vec F S1x4096x256 .f32) (x2 : Vec F S1x256x2 .f32) (x3 : Vec F S1x1x4096 .f32) (x4 : Vec F S1x1x4096 .f32) (x5 : Vec F S256x256 .f32) (x6 : Vec F S1x256 .f32) (x7 : Vec F S256x256 .f32) (x8 : Vec F S1x256 .f32) (x9 : Vec F S256x256 .f32) (x10 : Vec F S1x256 .f32) (x11 : Vec F S256x256 .f32) (x12 : Vec F S1x256 .f32) :
    out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 = confBlk (F := F) x2 x3 x4 := by
  unfold out0_A_16
  rw [View.read_writes_eq_canon _ _ _ (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12)]
  unfold kernelRun0_A
  dsimp only
  sl_unfold_words
  rw [View.canon_unit_zero hz3]
  try rw [View.readCov_unit_zero (S := S4096x256) _ hz2]
  try rw [View.readCov_unit_zero (S := S4096x256) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg19.read_unread, harg20.read_unread, View.ld_unit_zero (S := S1x256x256) hz3, View.ld_unit_zero (S := S1x4096x256) hz3, View.ld_unit_zero (S := S1x256x2) hz3, View.ld_unit_zero (S := S1x1x4096) hz3, View.ld_unit_zero (S := S256x256) hz2, View.ld_unit_zero (S := S1x256) hz2, View.ld_unit_zero (S := S4096x256) hz2]
  rfl

/-! ## A later point of a batch: the four blocks read the keys and values the point before left -/

theorem out0_B_13_eq (c : Dev nD) (i : grid0.Coords) (arg2 : Memref sig .tc .vmem S1x256x256 .f32) (harg2 : arg2.IsWhole) (arg3 : Memref sig .tc .vmem S1x4096x256 .f32) (harg3 : arg3.IsWhole) (arg4 : Memref sig .tc .vmem S1x256x2 .f32) (harg4 : arg4.IsWhole) (arg5 : Memref sig .tc .vmem S1x1x4096 .f32) (harg5 : arg5.IsWhole) (arg6 : Memref sig .tc .vmem S1x1x4096 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S256x256 .f32) (harg11 : arg11.IsWhole) (arg12 : Memref sig .tc .vmem S1x256 .f32) (harg12 : arg12.IsWhole) (arg13 : Memref sig .tc .vmem S256x256 .f32) (harg13 : arg13.IsWhole) (arg14 : Memref sig .tc .vmem S1x256 .f32) (harg14 : arg14.IsWhole) (arg15 : Memref sig .tc .vmem S1x256x4096 .f32) (harg15 : arg15.IsWhole) (arg16 : Memref sig .tc .vmem S1x256x256 .f32) (harg16 : arg16.IsWhole) (arg17 : Memref sig .tc .vmem S1x256x1 .f32) (harg17 : arg17.IsWhole) (arg18 : Memref sig .tc .vmem S1x256x1 .f32) (harg18 : arg18.IsWhole) (arg19 : Memref sig .tc .vmem S4096x256 .f32) (harg19 : arg19.IsWhole) (arg20 : Memref sig .tc .vmem S4096x256 .bf16) (harg20 : arg20.IsWhole) (hc0 : ¬cond0_0 i) (x0 : Vec F S1x256x256 .f32) (x1 : Vec F S1x4096x256 .f32) (x2 : Vec F S1x256x2 .f32) (x3 : Vec F S1x1x4096 .f32) (x4 : Vec F S1x1x4096 .f32) (x5 : Vec F S256x256 .f32) (x6 : Vec F S1x256 .f32) (x7 : Vec F S256x256 .f32) (x8 : Vec F S1x256 .f32) (x9 : Vec F S256x256 .f32) (x10 : Vec F S1x256 .f32) (x11 : Vec F S256x256 .f32) (x12 : Vec F S1x256 .f32) (xs0 : Vec F S4096x256 .f32) (xs1 : Vec F S4096x256 .bf16) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 xs0 xs1 = attnBlk x0 x2 x3 x4 x5 x6 xs0 := by
  unfold out0_B_13
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 xs0 xs1)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg19.read_unread, harg20.read_unread, View.ld_unit_zero (S := S1x256x256) hz3, View.ld_unit_zero (S := S1x4096x256) hz3, View.ld_unit_zero (S := S1x256x2) hz3, View.ld_unit_zero (S := S1x1x4096) hz3, View.ld_unit_zero (S := S256x256) hz2, View.ld_unit_zero (S := S1x256) hz2, View.ld_unit_zero (S := S4096x256) hz2]
  rfl

theorem out0_B_14_eq (c : Dev nD) (i : grid0.Coords) (arg2 : Memref sig .tc .vmem S1x256x256 .f32) (harg2 : arg2.IsWhole) (arg3 : Memref sig .tc .vmem S1x4096x256 .f32) (harg3 : arg3.IsWhole) (arg4 : Memref sig .tc .vmem S1x256x2 .f32) (harg4 : arg4.IsWhole) (arg5 : Memref sig .tc .vmem S1x1x4096 .f32) (harg5 : arg5.IsWhole) (arg6 : Memref sig .tc .vmem S1x1x4096 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S256x256 .f32) (harg11 : arg11.IsWhole) (arg12 : Memref sig .tc .vmem S1x256 .f32) (harg12 : arg12.IsWhole) (arg13 : Memref sig .tc .vmem S256x256 .f32) (harg13 : arg13.IsWhole) (arg14 : Memref sig .tc .vmem S1x256 .f32) (harg14 : arg14.IsWhole) (arg15 : Memref sig .tc .vmem S1x256x4096 .f32) (harg15 : arg15.IsWhole) (arg16 : Memref sig .tc .vmem S1x256x256 .f32) (harg16 : arg16.IsWhole) (arg17 : Memref sig .tc .vmem S1x256x1 .f32) (harg17 : arg17.IsWhole) (arg18 : Memref sig .tc .vmem S1x256x1 .f32) (harg18 : arg18.IsWhole) (arg19 : Memref sig .tc .vmem S4096x256 .f32) (harg19 : arg19.IsWhole) (arg20 : Memref sig .tc .vmem S4096x256 .bf16) (harg20 : arg20.IsWhole) (hc0 : ¬cond0_0 i) (x0 : Vec F S1x256x256 .f32) (x1 : Vec F S1x4096x256 .f32) (x2 : Vec F S1x256x2 .f32) (x3 : Vec F S1x1x4096 .f32) (x4 : Vec F S1x1x4096 .f32) (x5 : Vec F S256x256 .f32) (x6 : Vec F S1x256 .f32) (x7 : Vec F S256x256 .f32) (x8 : Vec F S1x256 .f32) (x9 : Vec F S256x256 .f32) (x10 : Vec F S1x256 .f32) (x11 : Vec F S256x256 .f32) (x12 : Vec F S1x256 .f32) (xs0 : Vec F S4096x256 .f32) (xs1 : Vec F S4096x256 .bf16) :
    out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 xs0 xs1 = outBlk x0 x2 x3 x4 x5 x6 x11 x12 xs0 xs1 := by
  unfold out0_B_14
  rw [View.read_writes_eq_canon _ _ _ (cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 xs0 xs1)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg19.read_unread, harg20.read_unread, View.ld_unit_zero (S := S1x256x256) hz3, View.ld_unit_zero (S := S1x4096x256) hz3, View.ld_unit_zero (S := S1x256x2) hz3, View.ld_unit_zero (S := S1x1x4096) hz3, View.ld_unit_zero (S := S256x256) hz2, View.ld_unit_zero (S := S1x256) hz2, View.ld_unit_zero (S := S4096x256) hz2]
  rfl

theorem out0_B_15_eq (c : Dev nD) (i : grid0.Coords) (arg2 : Memref sig .tc .vmem S1x256x256 .f32) (harg2 : arg2.IsWhole) (arg3 : Memref sig .tc .vmem S1x4096x256 .f32) (harg3 : arg3.IsWhole) (arg4 : Memref sig .tc .vmem S1x256x2 .f32) (harg4 : arg4.IsWhole) (arg5 : Memref sig .tc .vmem S1x1x4096 .f32) (harg5 : arg5.IsWhole) (arg6 : Memref sig .tc .vmem S1x1x4096 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S256x256 .f32) (harg11 : arg11.IsWhole) (arg12 : Memref sig .tc .vmem S1x256 .f32) (harg12 : arg12.IsWhole) (arg13 : Memref sig .tc .vmem S256x256 .f32) (harg13 : arg13.IsWhole) (arg14 : Memref sig .tc .vmem S1x256 .f32) (harg14 : arg14.IsWhole) (arg15 : Memref sig .tc .vmem S1x256x4096 .f32) (harg15 : arg15.IsWhole) (arg16 : Memref sig .tc .vmem S1x256x256 .f32) (harg16 : arg16.IsWhole) (arg17 : Memref sig .tc .vmem S1x256x1 .f32) (harg17 : arg17.IsWhole) (arg18 : Memref sig .tc .vmem S1x256x1 .f32) (harg18 : arg18.IsWhole) (arg19 : Memref sig .tc .vmem S4096x256 .f32) (harg19 : arg19.IsWhole) (arg20 : Memref sig .tc .vmem S4096x256 .bf16) (harg20 : arg20.IsWhole) (hc0 : ¬cond0_0 i) (x0 : Vec F S1x256x256 .f32) (x1 : Vec F S1x4096x256 .f32) (x2 : Vec F S1x256x2 .f32) (x3 : Vec F S1x1x4096 .f32) (x4 : Vec F S1x1x4096 .f32) (x5 : Vec F S256x256 .f32) (x6 : Vec F S1x256 .f32) (x7 : Vec F S256x256 .f32) (x8 : Vec F S1x256 .f32) (x9 : Vec F S256x256 .f32) (x10 : Vec F S1x256 .f32) (x11 : Vec F S256x256 .f32) (x12 : Vec F S1x256 .f32) (xs0 : Vec F S4096x256 .f32) (xs1 : Vec F S4096x256 .bf16) :
    out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 xs0 xs1 = dispBlk x0 x2 x3 x4 x5 x6 xs0 := by
  unfold out0_B_15
  rw [View.read_writes_eq_canon _ _ _ (cover0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 xs0 xs1)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg19.read_unread, harg20.read_unread, View.ld_unit_zero (S := S1x256x256) hz3, View.ld_unit_zero (S := S1x4096x256) hz3, View.ld_unit_zero (S := S1x256x2) hz3, View.ld_unit_zero (S := S1x1x4096) hz3, View.ld_unit_zero (S := S256x256) hz2, View.ld_unit_zero (S := S1x256) hz2, View.ld_unit_zero (S := S4096x256) hz2]
  rfl

theorem out0_B_16_eq (c : Dev nD) (i : grid0.Coords) (arg2 : Memref sig .tc .vmem S1x256x256 .f32) (harg2 : arg2.IsWhole) (arg3 : Memref sig .tc .vmem S1x4096x256 .f32) (harg3 : arg3.IsWhole) (arg4 : Memref sig .tc .vmem S1x256x2 .f32) (harg4 : arg4.IsWhole) (arg5 : Memref sig .tc .vmem S1x1x4096 .f32) (harg5 : arg5.IsWhole) (arg6 : Memref sig .tc .vmem S1x1x4096 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S256x256 .f32) (harg11 : arg11.IsWhole) (arg12 : Memref sig .tc .vmem S1x256 .f32) (harg12 : arg12.IsWhole) (arg13 : Memref sig .tc .vmem S256x256 .f32) (harg13 : arg13.IsWhole) (arg14 : Memref sig .tc .vmem S1x256 .f32) (harg14 : arg14.IsWhole) (arg15 : Memref sig .tc .vmem S1x256x4096 .f32) (harg15 : arg15.IsWhole) (arg16 : Memref sig .tc .vmem S1x256x256 .f32) (harg16 : arg16.IsWhole) (arg17 : Memref sig .tc .vmem S1x256x1 .f32) (harg17 : arg17.IsWhole) (arg18 : Memref sig .tc .vmem S1x256x1 .f32) (harg18 : arg18.IsWhole) (arg19 : Memref sig .tc .vmem S4096x256 .f32) (harg19 : arg19.IsWhole) (arg20 : Memref sig .tc .vmem S4096x256 .bf16) (harg20 : arg20.IsWhole) (hc0 : ¬cond0_0 i) (x0 : Vec F S1x256x256 .f32) (x1 : Vec F S1x4096x256 .f32) (x2 : Vec F S1x256x2 .f32) (x3 : Vec F S1x1x4096 .f32) (x4 : Vec F S1x1x4096 .f32) (x5 : Vec F S256x256 .f32) (x6 : Vec F S1x256 .f32) (x7 : Vec F S256x256 .f32) (x8 : Vec F S1x256 .f32) (x9 : Vec F S256x256 .f32) (x10 : Vec F S1x256 .f32) (x11 : Vec F S256x256 .f32) (x12 : Vec F S1x256 .f32) (xs0 : Vec F S4096x256 .f32) (xs1 : Vec F S4096x256 .bf16) :
    out0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 xs0 xs1 = confBlk (F := F) x2 x3 x4 := by
  unfold out0_B_16
  rw [View.read_writes_eq_canon _ _ _ (cover0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 xs0 xs1)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg19.read_unread, harg20.read_unread, View.ld_unit_zero (S := S1x256x256) hz3, View.ld_unit_zero (S := S1x4096x256) hz3, View.ld_unit_zero (S := S1x256x2) hz3, View.ld_unit_zero (S := S1x1x4096) hz3, View.ld_unit_zero (S := S256x256) hz2, View.ld_unit_zero (S := S1x256) hz2, View.ld_unit_zero (S := S4096x256) hz2]
  rfl

end Cert.KernelIdeal.Pieces

end
-- ==== Proof.Literals.lean ====
/-
  The float literals this kernel and its reference spell, read as extended reals.

  The attention scores are scaled by one sixteenth in the kernel and divided by sixteen in the reference; the
  softmax weights are a product with the reciprocal `1 / l` in the kernel and a quotient by `l` in the reference;
  a masked score is replaced by the finite number -10^9 in both, a row maximum starts from minus infinity, and an
  input is finite when its absolute value lies below plus infinity.
  Each pattern is evaluated here once.
-/
import Idealize.ShloMosaic.PureOps.Ideal
import Idealize.ShloMosaic.PureOps.Ideal.Laws

noncomputable section

namespace Cert.Literals

open Idealize.ShloMosaic

/-- The pattern of `0.0625` denotes the real `1/16`. -/
theorem sixteenth : Ideal.ofBits .f32 0x3D800000#32 = (((1 : ℝ) / 16 : ℝ) : EReal) := by
  simp [Ideal.ofBits, Ideal.ieee, -EReal.coe_mul]; norm_num

/-- The pattern of `16.0` denotes the real `16`. -/
theorem sixteen : Ideal.ofBits .f32 0x41800000#32 = ((16 : ℝ) : EReal) := by
  simp [Ideal.ofBits, Ideal.ieee, -EReal.coe_mul]; norm_num

/-- The pattern of `1.0` denotes `1`. -/
theorem one : Ideal.ofBits .f32 0x3F800000#32 = 1 := by
  simp [Ideal.ofBits, Ideal.ieee, -EReal.coe_mul]; norm_num

/-- The pattern of minus infinity denotes the bottom of the extended reals. -/
theorem negInf : Ideal.ofBits .f32 0xFF800000#32 = ⊥ := by
  simp [Ideal.ofBits, Ideal.ieee]

/-- The pattern of plus infinity denotes the top of the extended reals. -/
theorem posInf : Ideal.ofBits .f32 0x7F800000#32 = ⊤ := by
  simp [Ideal.ofBits, Ideal.ieee]

/-- The fill value of a masked score, `-10^9`, denotes a real number. -/
theorem fill : Ideal.ofBits .f32 0xCE6E6B28#32 = ((-1000000000 : ℝ) : EReal) := by
  simp [Ideal.ofBits, Ideal.ieee, -EReal.coe_mul, -EReal.coe_neg]; norm_num

end Cert.Literals

end
-- ==== Proof.Spec.lean ====
/-
  Masked attention between two point sets along a row band, as mathematics over the extended reals.

  For a batch `b`, a left point `n` and a right point `j` the score is the inner product of the projected left and
  right feature vectors, scaled by one sixteenth; the pair is kept when the two points' second coordinates differ by
  less than 3 and the first coordinate of the left point exceeds the right one's by more than 0 and less than 192, and
  a pair that is not kept scores -10^9. A row's weights are its softmax: `exp (g j - max g)` over the row total.
  From the weights come four results: the weights themselves, their product with the projected right values pushed
  through one more linear layer, the weighted mean of the first-coordinate differences, and a flag telling whether
  any pair of the row was kept.

  Everything below is stated for one row, over functions of small finite index types; the whole arrays only supply
  these functions. The laws at the end are the ones that join the two ways the programs spell the same row.
-/
import Idealize.ShloMosaic.PureOps.Ideal
import Idealize.ShloMosaic.PureOps.Ideal.Laws
import Idealize.ShloMosaic.PureOps.Reduce
import Idealize.ShloMosaic.Lib.ValueIdx
import Idealize.ShloMosaic.Lib.IdealHost
import proofs.«126372_j19327352832529_2_alg».proof.Proof.Literals

noncomputable section

namespace Cert.BandAttention

open Idealize.ShloMosaic Idealize.ShloMosaic.ValueIdx
open scoped BigOperators

/-! ## One row -/

/-- Whether a left point with coordinates `(lu, lv)` keeps a right point with coordinates `(ru, rv)`:
    `|lv - rv| < 3`, `0 < lu - ru`, `lu - ru < 192`, as one bit. -/
def keeps (lu lv ru rv : EReal) : BitVec 1 :=
  IntOp.andi
    (IntOp.andi
      (FloatOps.cmpf (F := Ideal) (φ := .f32) .olt (FloatOps.absf (F := Ideal) (φ := .f32) (lv - rv)) (Ideal.ofBits .f32 0x40400000#32))
      (FloatOps.cmpf (F := Ideal) (φ := .f32) .ogt (lu - ru) (Ideal.ofBits .f32 0x00000000#32)))
    (FloatOps.cmpf (F := Ideal) (φ := .f32) .olt (lu - ru) (Ideal.ofBits .f32 0x43400000#32))

/-- The masked score of a row: the scaled inner product of the row's query with key `j` where the pair is kept,
    `-10^9` elsewhere. -/
def logits (qv : Fin 256 → EReal) (kv : Fin 4096 → Fin 256 → EReal) (lu lv : EReal) (ru rv : Fin 4096 → EReal)
    (j : Fin 4096) : EReal :=
  Scalar.select (keeps lu lv (ru j) (rv j))
    ((∑ d : Fin 256, qv d * kv j d) * Ideal.ofBits .f32 0x3D800000#32) (Ideal.ofBits .f32 0xCE6E6B28#32)

/-- A row's greatest entry, taken from minus infinity. -/
def rowTop {n : ℕ} (g : Fin n → EReal) : EReal :=
  (Finset.univ : Finset (Fin n)).fold max (Ideal.ofBits .f32 0xFF800000#32) g

/-- A row's entries shifted by the greatest one and exponentiated. -/
def rowExp {n : ℕ} (g : Fin n → EReal) (j : Fin n) : EReal := Ideal.exp (g j - rowTop g)

/-- The softmax of a row, as the product with the reciprocal of the row total. -/
def weights {n : ℕ} (g : Fin n → EReal) (j : Fin n) : EReal :=
  rowExp g j * Ideal.div (Ideal.ofBits .f32 0x3F800000#32) (∑ k : Fin n, rowExp g k)

/-- Whether any bit of a row is set, as a float: one where the greatest of the bits read as 1.0 / 0.0 exceeds zero. -/
def anySet {n : ℕ} (p : Fin n → BitVec 1) : EReal :=
  FloatOps.sitofp (F := Ideal) .f32
    ((FloatOps.cmpf (F := Ideal) (φ := .f32) .ogt
      (rowTop fun j => Scalar.select (p j) (Ideal.ofBits .f32 0x3F800000#32) (Ideal.ofBits .f32 0x00000000#32))
      (Ideal.ofBits .f32 0x00000000#32)).setWidth 32)

/-! ## The whole arrays -/

abbrev Feat := (⟨3, ![4, 4096, 256]⟩ : Shape).Idx → EReal
abbrev Pts := (⟨3, ![4, 4096, 2]⟩ : Shape).Idx → EReal
abbrev Wgt := (⟨2, ![256, 256]⟩ : Shape).Idx → EReal
abbrev Bias := (⟨1, ![256]⟩ : Shape).Idx → EReal

/-- A linear layer with the weight stored [out, in]: entry `d` of row `(b, n)`. -/
def lin (x : Feat) (W : Wgt) (β : Bias) (b : Fin 4) (n : Fin 4096) (d : Fin 256) : EReal :=
  (∑ c : Fin 256, x (ix3 b n c) * W (ix2 d c)) + β (ix1 d)

section
variable (nL nR : Feat) (kL kR : Pts) (Wq : Wgt) (bq : Bias) (Wk : Wgt) (bk : Bias) (Wv : Wgt) (bv : Bias)
  (Wm : Wgt) (bm : Bias)

/-- Row `(b, n)`'s masked scores. -/
def score (b : Fin 4) (n : Fin 4096) : Fin 4096 → EReal :=
  logits (lin nL Wq bq b n) (lin nR Wk bk b) (kL (ix3 b n (0 : Fin 2))) (kL (ix3 b n (1 : Fin 2)))
    (fun j => kR (ix3 b j (0 : Fin 2))) (fun j => kR (ix3 b j (1 : Fin 2)))

/-- The attention weights. -/
def attn : (⟨3, ![4, 4096, 4096]⟩ : Shape).Idx → EReal :=
  fun i => weights (score nL nR kL kR Wq bq Wk bk (i 0) (i 1)) (i 2)

/-- The matched features: the weights against the projected right values. -/
def matched (b : Fin 4) (n : Fin 4096) (d : Fin 256) : EReal :=
  ∑ j : Fin 4096, weights (score nL nR kL kR Wq bq Wk bk b n) j * lin nR Wv bv b j d

/-- The output features: one more linear layer over the matched ones. -/
def outp : (⟨3, ![4, 4096, 256]⟩ : Shape).Idx → EReal :=
  fun i => (∑ d : Fin 256, matched nL nR kL kR Wq bq Wk bk Wv bv (i 0) (i 1) d * Wm (ix2 (i 2) d)) + bm (ix1 (i 2))

/-- The weighted mean of the first-coordinate differences. -/
def disp : (⟨3, ![4, 4096, 1]⟩ : Shape).Idx → EReal :=
  fun i => ∑ j : Fin 4096, weights (score nL nR kL kR Wq bq Wk bk (i 0) (i 1)) j
    * (kL (ix3 (i 0) (i 1) (0 : Fin 2)) - kR (ix3 (i 0) j (0 : Fin 2)))

/-- Whether the row keeps any pair. -/
def conf : (⟨3, ![4, 4096, 1]⟩ : Shape).Idx → EReal :=
  fun i => anySet fun j : Fin 4096 => keeps (kL (ix3 (i 0) (i 1) (0 : Fin 2))) (kL (ix3 (i 0) (i 1) (1 : Fin 2)))
    (kR (ix3 (i 0) j (0 : Fin 2))) (kR (ix3 (i 0) j (1 : Fin 2)))

/-- The four results at an index written by its coordinates. -/
theorem attn_apply (b : Fin 4) (n j : Fin 4096) :
    attn nL nR kL kR Wq bq Wk bk (ix3 b n j) = weights (score nL nR kL kR Wq bq Wk bk b n) j := rfl

theorem outp_apply (b : Fin 4) (n : Fin 4096) (o : Fin 256) :
    outp nL nR kL kR Wq bq Wk bk Wv bv Wm bm (ix3 b n o)
      = (∑ d : Fin 256, matched nL nR kL kR Wq bq Wk bk Wv bv b n d * Wm (ix2 o d)) + bm (ix1 o) := rfl

theorem disp_apply (b : Fin 4) (n : Fin 4096) (z : Fin 1) :
    disp nL nR kL kR Wq bq Wk bk (ix3 b n z)
      = ∑ j : Fin 4096, weights (score nL nR kL kR Wq bq Wk bk b n) j
          * (kL (ix3 b n (0 : Fin 2)) - kR (ix3 b j (0 : Fin 2))) := rfl

theorem conf_apply (b : Fin 4) (n : Fin 4096) (z : Fin 1) :
    conf kL kR (ix3 b n z)
      = anySet fun j : Fin 4096 => keeps (kL (ix3 b n (0 : Fin 2))) (kL (ix3 b n (1 : Fin 2)))
          (kR (ix3 b j (0 : Fin 2))) (kR (ix3 b j (1 : Fin 2))) := rfl

end

/-! ## Real entries -/

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type} (s : Finset ι) (f : ι → EReal) (h : ∀ i ∈ s, IsReal (f i)) : IsReal (∑ i ∈ s, f i) := by
  classical
  revert h
  refine Finset.induction_on s ?_ ?_
  · intro _; exact ⟨0, by simp⟩
  · intro a s ha ih h
    rw [Finset.sum_insert ha]
    exact (h a (Finset.mem_insert_self a s)).add (ih fun i hi => h i (Finset.mem_insert_of_mem hi))

theorem IsReal.ne_bot {x : EReal} (hx : IsReal x) : x ≠ ⊥ := by
  obtain ⟨a, rfl⟩ := hx; exact EReal.coe_ne_bot a

theorem IsReal.ne_top {x : EReal} (hx : IsReal x) : x ≠ ⊤ := by
  obtain ⟨a, rfl⟩ := hx; exact EReal.coe_ne_top a

theorem IsReal.select {c : BitVec 1} {x y : EReal} (hx : IsReal x) (hy : IsReal y) : IsReal (Scalar.select c x y) := by
  unfold Scalar.select; split
  · exact hx
  · exact hy

/-- A linear layer of real entries has real entries. -/
theorem lin_real (x : Feat) (W : Wgt) (β : Bias) (hx : ∀ i, IsReal (x i)) (hW : ∀ i, IsReal (W i)) (hβ : ∀ i, IsReal (β i))
    (b : Fin 4) (n : Fin 4096) (d : Fin 256) : IsReal (lin x W β b n d) :=
  (IsReal.sum _ _ fun c _ => (hx _).mul (hW _)).add (hβ _)

/-- Masked scores of real queries and keys are real: the scale and the fill value are real numbers. -/
theorem logits_real (qv : Fin 256 → EReal) (kv : Fin 4096 → Fin 256 → EReal) (lu lv : EReal) (ru rv : Fin 4096 → EReal)
    (hq : ∀ d, IsReal (qv d)) (hk : ∀ j d, IsReal (kv j d)) (j : Fin 4096) : IsReal (logits qv kv lu lv ru rv j) :=
  IsReal.select ((IsReal.sum _ _ fun d _ => (hq d).mul (hk j d)).mul ⟨_, Cert.Literals.sixteenth⟩) ⟨_, Cert.Literals.fill⟩

/-! ## The laws that join the two spellings -/

/-- Dividing by sixteen is multiplying by one sixteenth, on every extended real. -/
theorem div_sixteen (s : EReal) :
    Ideal.div s (Ideal.ofBits .f32 0x41800000#32) = s * Ideal.ofBits .f32 0x3D800000#32 := by
  rw [Cert.Literals.sixteen, Cert.Literals.sixteenth, Ideal.div_coe (by norm_num : (16 : ℝ) ≠ 0)]

/-- A quotient by a nonzero total is the product with its reciprocal. -/
theorem div_eq_mul_recip {e l : EReal} (hl : l ≠ 0) :
    Ideal.div e l = e * Ideal.div (Ideal.ofBits .f32 0x3F800000#32) l := by
  rw [Cert.Literals.one, Ideal.mul_one_div hl]

theorem exp_nonneg (x : EReal) : 0 ≤ Ideal.exp x := by
  induction x using EReal.rec with
  | bot => exact le_refl _
  | coe r => exact EReal.coe_nonneg.mpr (Real.exp_pos r).le
  | top => exact le_top

/-- The greatest entry of a nonempty row of real numbers is a real number. -/
theorem rowTop_real {n : ℕ} (hn : 0 < n) (g : Fin n → EReal) (hg : ∀ j, IsReal (g j)) : IsReal (rowTop g) := by
  have hbot : rowTop g ≠ ⊥ := by
    have h0 : g ⟨0, hn⟩ ≤ rowTop g := by
      unfold rowTop
      rw [Finset.le_fold_max]
      exact Or.inr ⟨⟨0, hn⟩, Finset.mem_univ _, le_refl _⟩
    intro h
    rw [h] at h0
    exact (hg ⟨0, hn⟩).ne_bot (le_bot_iff.mp h0)
  have htop : rowTop g ≠ ⊤ := by
    have : rowTop g < ⊤ := by
      unfold rowTop
      rw [Finset.fold_max_lt, Cert.Literals.negInf]
      exact ⟨bot_lt_top, fun x _ => lt_top_iff_ne_top.mpr (hg x).ne_top⟩
    exact this.ne
  exact ⟨(rowTop g).toReal, (EReal.coe_toReal htop hbot).symm⟩

/-- The total of a nonempty real row's shifted exponentials is not zero: the entry `0` contributes a positive real,
    and no entry contributes a negative one. -/
theorem total_ne_zero {n : ℕ} (hn : 0 < n) (g : Fin n → EReal) (hg : ∀ j, IsReal (g j)) :
    (∑ k : Fin n, rowExp g k) ≠ 0 := by
  obtain ⟨M, hM⟩ := rowTop_real hn g hg
  obtain ⟨a, ha⟩ := hg ⟨0, hn⟩
  have hpos : 0 < rowExp g ⟨0, hn⟩ := by
    unfold rowExp
    rw [hM, ha, ← EReal.coe_sub, Ideal.exp_coe]
    exact EReal.coe_pos.mpr (Real.exp_pos _)
  have hle : rowExp g ⟨0, hn⟩ ≤ ∑ k : Fin n, rowExp g k :=
    Finset.single_le_sum (f := rowExp g) (fun k _ => exp_nonneg _) (Finset.mem_univ _)
  exact (lt_of_lt_of_le hpos hle).ne'

/-- The quotient spelling of the softmax is the reciprocal spelling, on a nonempty row of real numbers. -/
theorem quotient_eq_weights {n : ℕ} (hn : 0 < n) (g : Fin n → EReal) (hg : ∀ j, IsReal (g j)) (j : Fin n) :
    Ideal.div (rowExp g j) (∑ k : Fin n, rowExp g k) = weights g j :=
  div_eq_mul_recip (total_ne_zero hn g hg)

/-! ## Any bit of a row, two ways -/

theorem ori_eq_one_iff (x y : BitVec 1) : IntOp.ori x y = 1#1 ↔ x = 1#1 ∨ y = 1#1 := by
  revert x y; decide

theorem fold_ori_eq_one_iff {ι : Type} (s : Finset ι) (p : ι → BitVec 1) :
    s.fold IntOp.ori 0#1 p = 1#1 ↔ ∃ j ∈ s, p j = 1#1 := by
  classical
  refine Finset.induction_on s ?_ ?_
  · simp
  · intro a s ha ih
    rw [Finset.fold_insert ha, ori_eq_one_iff, ih]
    constructor
    · rintro (h | ⟨j, hj, h⟩)
      · exact ⟨a, Finset.mem_insert_self a s, h⟩
      · exact ⟨j, Finset.mem_insert_of_mem hj, h⟩
    · rintro ⟨j, hj, h⟩
      rcases Finset.mem_insert.mp hj with rfl | hj
      · exact Or.inl h
      · exact Or.inr ⟨j, hj, h⟩

/-- The float flag of "some bit is set" computed through a row maximum of 1.0 / 0.0 is the bits' disjunction read as a
    number. -/
theorem anySet_eq_fold_ori {n : ℕ} (p : Fin n → BitVec 1) :
    anySet p = FloatOps.uitofp (F := Ideal) .f32 ((Finset.univ : Finset (Fin n)).fold IntOp.ori 0#1 p) := by
  unfold anySet rowTop
  rw [Cert.Literals.one, Ideal.ofBits_zero_f32, Cert.Literals.negInf]
  show (((((Ideal.cmp .ogt _ 0).setWidth 32).toInt : ℝ)) : EReal) = ((((Finset.univ : Finset (Fin n)).fold IntOp.ori 0#1 p).toNat : ℝ) : EReal)
  by_cases h : ∃ j ∈ (Finset.univ : Finset (Fin n)), p j = 1#1
  · rw [(fold_ori_eq_one_iff _ p).mpr h]
    obtain ⟨j, _, hj⟩ := h
    have hlt : (0 : EReal) < (Finset.univ : Finset (Fin n)).fold max ⊥ (fun j => Scalar.select (p j) (1 : EReal) 0) := by
      refine lt_of_lt_of_le zero_lt_one ?_
      rw [Finset.le_fold_max]
      refine Or.inr ⟨j, Finset.mem_univ _, ?_⟩
      rw [hj]; exact le_of_eq (if_pos rfl).symm
    have : Ideal.cmp .ogt ((Finset.univ : Finset (Fin n)).fold max ⊥ (fun j => Scalar.select (p j) (1 : EReal) 0)) 0 = 1#1 := by
      unfold Ideal.cmp; simp [hlt]
    rw [this]; simp
  · have hne : (Finset.univ : Finset (Fin n)).fold IntOp.ori 0#1 p ≠ 1#1 := fun e => h ((fold_ori_eq_one_iff _ p).mp e)
    rw [eq_zero_of_ne_one hne]
    have hall : ∀ j, p j = 0#1 := fun j => eq_zero_of_ne_one fun e => h ⟨j, Finset.mem_univ _, e⟩
    have hle : (Finset.univ : Finset (Fin n)).fold max ⊥ (fun j => Scalar.select (p j) (1 : EReal) 0) ≤ 0 := by
      rw [Finset.fold_max_le]
      refine ⟨bot_le, fun j _ => ?_⟩
      rw [hall j]; exact le_of_eq (if_neg (by decide))
    have : Ideal.cmp .ogt ((Finset.univ : Finset (Fin n)).fold max ⊥ (fun j => Scalar.select (p j) (1 : EReal) 0)) 0 = 0#1 := by
      unfold Ideal.cmp; simp [not_lt.mpr hle]
    rw [this]; simp

end Cert.BandAttention

end
-- ==== Proof.LibPlainProduct.lean ====
/-
  A product of an m×k matrix with the TRANSPOSE of an n×k matrix, read at one entry.

  A linear layer `y = x · Wᵀ` with the weight stored [out, in] prints in a kernel as a `tpu.matmul` of the rows with
  `tpu.transpose W` into a zero accumulator, and on the host as a `dot_general` of the rows with `stablehlo.transpose W`;
  both have the dimension numbers of the plain product (contract the left operand's axis 1 with the right operand's
  axis 0, no batch axis). At the ideal values either one, read at entry (a, b), is the sum over the contracted
  coordinate c of `x (a, c) · W (b, c)`: the accumulator is the zero of the extended reals, which `0 + s = s` drops, and the
  transpose only names the entry (c, b) of its result as the entry (b, c) of its operand. Nothing here needs the entries
  to be finite.
-/
import Idealize.ShloMosaic.Lib.StackMember
import Idealize.ShloMosaic.Lib.KernelVsHost
import Idealize.ShloMosaic.Lib.Pipeline.Value
import Idealize.ShloMosaic.Lib.ValueIdx

noncomputable section

open scoped BigOperators

namespace Idealize.ShloMosaic.PlainProduct

open Idealize.ShloMosaic Idealize.ShloMosaic.ValueIdx

variable {m k n : Nat} {φ₁ φ₂ : FTy}

/-- The transpose of an n×k matrix, read at (c, b), is the matrix at (b, c). -/
theorem transpose_swap_apply {α : Type} (W : (⟨2, ![n, k]⟩ : Shape).Idx → α)
    (h : (⟨2, ![n, k]⟩ : Shape).Transposes [1, 0] ⟨2, ![k, n]⟩) (c : Fin k) (b : Fin n) :
    transpose ⟨2, ![k, n]⟩ [1, 0] W h (ix2 c b) = W (ix2 b c) :=
  transpose_apply [1, 0] W h (ix2 c b) (ix2 b c) fun ax => by
    match ax with
    | ⟨0, _⟩ => rfl
    | ⟨1, _⟩ => rfl

/-- A host `dot_general` whose dimension numbers are the plain product's, read at (a, b): the sum over the contracted
    coordinate of the products of the entries. -/
theorem dotGeneral_of_plain (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    Host.dotGeneral D prec A B (ix2 a b) = ∑ c : Fin k, A (ix2 a c) * B (ix2 c b) := by
  subst hD
  exact StackMember.dotGeneral_plain_apply prec A B a b

/-- A kernel's `tpu.matmul` with those dimension numbers into the zero splat, read at (a, b): the same sum. -/
theorem matmul_of_plain (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    matmul D prec A B (constant ⟨2, ![m, n]⟩ .f32 0x00000000#32) (ix2 a b) = ∑ c : Fin k, A (ix2 a c) * B (ix2 c b) := by
  rw [matmul_zero_eq_dotGeneral]
  exact dotGeneral_of_plain D hD prec A B a b

/-- THE HOST'S LINEAR LAYER at an entry: `dot_general` of the rows with the transposed weight is `∑ c, x (a, c) · W (b, c)`. -/
theorem dotGeneral_transposed_apply (D : DotDims ⟨2, ![m, k]⟩ ⟨2, ![k, n]⟩ ⟨2, ![m, n]⟩) (hD : D = DotDims.plain m k n)
    (prec : Option ContractPrecision) (A : FVec Ideal ⟨2, ![m, k]⟩ φ₁) (W : FVec Ideal ⟨2, ![n, k]⟩ φ₂)
    (h : (⟨2, ![n, k]⟩ : Shape).Transposes [1, 0] ⟨2, ![k, n]⟩) (a : Fin m) (b : Fin n) :
    Host.dotGeneral D prec A (transpose ⟨2, ![k, n]⟩ [1, 0] W h) (ix2 a b) = ∑ c : Fin k, A (ix2 a c) * W (ix2 b c) := by
  rw [dotGeneral_of_plain D hD]
  exact Finset.sum_congr rfl fun c _ => by rw [transpose_swap_apply]

/-- THE KERNEL'S LINEAR LAYER at an entry: `tpu.matmul` of the rows with the transposed weight into the zero splat is the
    same sum. -/
theorem matmul_transposed_apply (D : DotDims ⟨2, ![m, k]⟩ ⟨2, ![k, n]⟩ ⟨2, ![m, n]⟩) (hD : D = DotDims.plain m k n)
    (prec : Option ContractPrecision) (A : FVec Ideal ⟨2, ![m, k]⟩ φ₁) (W : FVec Ideal ⟨2, ![n, k]⟩ φ₂)
    (h : (⟨2, ![n, k]⟩ : Shape).Transposes [1, 0] ⟨2, ![k, n]⟩) (a : Fin m) (b : Fin n) :
    matmul D prec A (transpose ⟨2, ![k, n]⟩ [1, 0] W h) (constant ⟨2, ![m, n]⟩ .f32 0x00000000#32) (ix2 a b)
      = ∑ c : Fin k, A (ix2 a c) * W (ix2 b c) := by
  rw [matmul_of_plain D hD]
  exact Finset.sum_congr rfl fun c _ => by rw [transpose_swap_apply]

end Idealize.ShloMosaic.PlainProduct

end
-- ==== Proof.LibRowForms.lean ====
/-
  Row reductions of a matrix, and a column laid along the rows, read at an index.

  Reducing a matrix `[a, b]` along its second axis gives a vector `[a]` whose entry `i` depends on row `i` alone: for a
  sum it is the sum of the row's `b` entries, for a maximum the fold of `max` over them from the initial value. And a
  column `[b, 1]`, transposed to the row `[1, b]` and copied down to `[a, b]`, has at `(i, j)` entry `j` of the column,
  whatever `i`. Every index is written by its coordinates.
-/
import Idealize.ShloMosaic.PureOps.Ideal.Laws
import Idealize.ShloMosaic.Lib.ValueIdx
import Idealize.ShloMosaic.Lib.ValueLayout

namespace Cert.RowForms

open Idealize.ShloMosaic Idealize.ShloMosaic.ValueIdx

/-- The index of the matrix that reduces to `i` along the second axis and has `k` there is `(i, k)`. -/
theorem lift_row {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext d; apply Fin.ext
  match d with
  | ⟨0, _⟩ => rfl
  | ⟨1, _⟩ => rfl

/-- A float sum along the rows, from the zero word, at `i`: the sum of row `i`. -/
theorem multiReduction_add_rows {a b : ℕ} (src : FVec Ideal ⟨2, ![a, b]⟩ .f32)
    (h : (⟨2, ![a, b]⟩ : Shape).Reduces [1] ⟨1, ![a]⟩) (i : Fin a) :
    multiReduction .add [1] ⟨1, ![a]⟩ src 0x00000000#32 h (.inl rfl) rfl (ix1 i) = ∑ k : Fin b, src (ix2 i k) :=
  (Ideal.multiReduction_add_single src 0x00000000#32 h (.inl rfl) rfl (ix1 i)).trans
    (Finset.sum_congr rfl fun k _ => congrArg src (lift_row h i k))

/-- A float maximum along the rows, from the word of minus infinity, at `i`: the fold of `max` over row `i`. -/
theorem multiReduction_max_rows {a b : ℕ} (src : FVec Ideal ⟨2, ![a, b]⟩ .f32)
    (h : (⟨2, ![a, b]⟩ : Shape).Reduces [1] ⟨1, ![a]⟩) (i : Fin a) :
    multiReduction .maximumf [1] ⟨1, ![a]⟩ src 0xFF800000#32 h (.inl rfl) rfl (ix1 i)
      = (Finset.univ : Finset (Fin b)).fold max (Ideal.ofBits .f32 0xFF800000#32) (fun k => src (ix2 i k)) :=
  (Ideal.multiReduction_maximumf_single src 0xFF800000#32 h (.inl rfl) rfl (ix1 i)).trans
    (congrArg (fun f => Finset.fold max (Ideal.ofBits .f32 0xFF800000#32) f (Finset.univ : Finset (Fin b)))
      (funext fun k => congrArg src (lift_row h i k)))

/-- A column `[b, 1]` transposed to a row `[1, b]` and copied down to `[a, b]` reads, at `(i, j)`, the column at `(j, 0)`. -/
theorem rowOfColumn_apply {α : Type} {a b : ℕ} (col : (⟨2, ![b, 1]⟩ : Shape).Idx → α)
    (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] col ht) hb (ix2 i j) = col (ix2 j (0 : Fin 1)) :=
  (broadcastTo_1b_ab_apply _ hb i j).trans (transpose_ix2_apply col ht (0 : Fin 1) j)

end Cert.RowForms
-- ==== Proof.LibColumnForms.lean ====
/-
  A column vector read at an index.

  Summing a matrix along its rows with the summed axis kept gives a column: the sums, an `[a]` vector, are laid out as
  `[a, 1]`, and the column is then copied along a new second axis to `[a, b]`. Entry `(i, j)` of the result is
  entry `i` of the vector, whatever `j`. The two lemmas below say this one layout step at a time, every index
  written by its coordinates.
-/
import Idealize.ShloMosaic.Lib.Pipeline.Value
import Idealize.ShloMosaic.Lib.ValueIdx

namespace Cert.ColumnForms

open Idealize.ShloMosaic Idealize.ShloMosaic.ValueIdx

variable {α : Type}

/-- A vector `[a]` laid out as a column `[a, 1]` reads, at `(i, u)`, the vector at `i`: the row-major position
    `i · 1 + u` of `(i, u)` is `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` copied along its unit axis to `[a, b]` reads, at `(i, j)`, the column at `(i, 0)`: the first
    coordinate is kept (also when `a = 1`, where it is `0` anyway), the second is the unit axis's only one. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.ColumnForms
-- ==== Proof.Entries.lean ====
/-
  The kernel body's arithmetic, read entry by entry over the extended reals.

  A point's body projects its left features to queries, scores them against the projected keys, masks the scores
  by the points' coordinates, takes a softmax along each row, and from the weights forms the output features, the
  weighted coordinate differences and the "some pair kept" flags. Each lemma below reads one of these block values
  at one entry, as the row-level function of the specification applied to the entries of the blocks the body loaded.
-/
import proofs.«126372_j19327352832529_2_alg».proof.Proof.Gen.KernelIdeal.Skeleton
import proofs.«126372_j19327352832529_2_alg».proof.Proof.Spec
import proofs.«126372_j19327352832529_2_alg».proof.Proof.LibPlainProduct
import proofs.«126372_j19327352832529_2_alg».proof.Proof.LibRowForms
import proofs.«126372_j19327352832529_2_alg».proof.Proof.LibColumnForms
import Idealize.ShloMosaic.Lib.ValueLayout
import Idealize.ShloMosaic.Lib.Pipeline.Value
import Idealize.ShloMosaic.Lib.ValueIdx

noncomputable section

namespace Cert.KernelIdeal.Entries

open Cert.KernelIdeal Cert.KernelIdeal.Gen Idealize.ShloMosaic Idealize.ShloMosaic.ValueIdx Cert.BandAttention
open scoped BigOperators

/-- A projection of the 4096 right rows: entry `(r, d)` is row `r` against row `d` of the weight, plus the bias. -/
theorem keys_apply (x1 : Vec Ideal S1x4096x256 .f32) (w : Vec Ideal S256x256 .f32) (β : Vec Ideal S1x256 .f32)
    (r : Fin 4096) (d : Fin 256) :
    k0_pay4 x1 w β (ix2 r d) = (∑ c : Fin 256, x1 (ix3 (0 : Fin 1) r c) * w (ix2 d c)) + β (ix2 (0 : Fin 1) d) := by
  unfold k0_pay4 k0_pay3
  try dsimp only
  rw [shapeCast_self, shapeCast_self]
  refine (addf_apply _ _ _).trans ?_
  rw [PlainProduct.matmul_transposed_apply dot_S4096x256_S256x256_S4096x256_1_0_0_1_n_n rfl, broadcastTo_1b_ab_apply]
  refine congrArg (· + _) (Finset.sum_congr rfl fun c _ => ?_)
  rw [shapeCast_1ab_ab_apply]

/-- The same for the values (the narrower float format they are kept in is the identity here). -/
theorem values_apply (x1 : Vec Ideal S1x4096x256 .f32) (w : Vec Ideal S256x256 .f32) (β : Vec Ideal S1x256 .f32)
    (r : Fin 4096) (d : Fin 256) :
    k0_pay5 x1 w β (ix2 r d) = (∑ c : Fin 256, x1 (ix3 (0 : Fin 1) r c) * w (ix2 d c)) + β (ix2 (0 : Fin 1) d) := by
  unfold k0_pay5 k0_pay3
  try dsimp only
  rw [shapeCast_self, shapeCast_self]
  show (addf (F := Ideal) _ _) (ix2 r d) = _
  refine (addf_apply _ _ _).trans ?_
  rw [PlainProduct.matmul_transposed_apply dot_S4096x256_S256x256_S4096x256_1_0_0_1_n_n rfl, broadcastTo_1b_ab_apply]
  refine congrArg (· + _) (Finset.sum_congr rfl fun c _ => ?_)
  rw [shapeCast_1ab_ab_apply]

/-- The scaled score of left row `q` against key `j`. -/
theorem score_apply (x0 : Vec Ideal S1x256x256 .f32) (x5 : Vec Ideal S256x256 .f32) (x6 : Vec Ideal S1x256 .f32)
    (ks : Vec Ideal S4096x256 .f32) (q : Fin 256) (j : Fin 4096) :
    k0_pay6 x0 x5 x6 ks (ix2 q j)
      = (∑ d : Fin 256, ((∑ c : Fin 256, x0 (ix3 (0 : Fin 1) q c) * x5 (ix2 d c)) + x6 (ix2 (0 : Fin 1) d)) * ks (ix2 j d))
          * Ideal.ofBits .f32 0x3D800000#32 := by
  unfold k0_pay6
  try dsimp only
  refine (mulf_apply _ _ _).trans ?_
  rw [PlainProduct.matmul_transposed_apply dot_S256x256_S256x4096_S256x4096_1_0_0_1_n_n rfl]
  refine congrArg (· * _) (Finset.sum_congr rfl fun d _ => ?_)
  refine congrArg (· * _) ?_
  refine (addf_apply _ _ _).trans ?_
  rw [PlainProduct.matmul_transposed_apply dot_S256x256_S256x256_S256x256_1_0_0_1_n_n rfl, shapeCast_self, broadcastTo_1b_ab_apply]
  refine congrArg (· + _) (Finset.sum_congr rfl fun c _ => ?_)
  rw [shapeCast_1ab_ab_apply]

/-- The distance of the second coordinates of left point `q` and right point `j`. -/
theorem distV_apply (x2 : Vec Ideal S1x256x2 .f32) (x4 : Vec Ideal S1x1x4096 .f32) (q : Fin 256) (j : Fin 4096) :
    k0_pay8 x2 x4 (ix2 q j)
      = FloatOps.absf (F := Ideal) (φ := .f32) (x2 (ix3 (0 : Fin 1) q (1 : Fin 2)) - x4 (ix3 (0 : Fin 1) (0 : Fin 1) j)) := by
  unfold k0_pay8 k0_pay7
  try dsimp only
  show FloatOps.absf (F := Ideal) (φ := .f32) (_ - _) = _
  rw [Cert.ColumnForms.broadcastTo_a1_ab_apply, slice2_axis1_apply 1 _ _ q (0 : Fin 1) (1 : Fin 2) rfl,
    shapeCast_1ab_ab_apply, broadcastTo_1b_ab_apply, shapeCast_1ab_ab_apply]

/-- The left point's first coordinate, copied along the row. -/
theorem leftU_apply (x2 : Vec Ideal S1x256x2 .f32) (q : Fin 256) (j : Fin 4096) :
    k0_pay9 x2 (ix2 q j) = x2 (ix3 (0 : Fin 1) q (0 : Fin 2)) := by
  unfold k0_pay9 k0_pay7
  try dsimp only
  rw [Cert.ColumnForms.broadcastTo_a1_ab_apply, slice2_axis1_apply 0 _ _ q (0 : Fin 1) (0 : Fin 2) rfl,
    shapeCast_1ab_ab_apply]

/-- The right points' first coordinates, copied down the rows. -/
theorem rightU_apply (x3 : Vec Ideal S1x1x4096 .f32) (q : Fin 256) (j : Fin 4096) :
    k0_pay10 x3 (ix2 q j) = x3 (ix3 (0 : Fin 1) (0 : Fin 1) j) := by
  unfold k0_pay10
  rw [broadcastTo_1b_ab_apply, shapeCast_1ab_ab_apply]

/-! ## The mask and the softmax along a row -/

/-- The mask bit at an entry, from the entry's second-coordinate distance and first coordinates. -/
theorem mask_apply (v28 v30 v31 : FVec Ideal S256x4096 .f32) (i : S256x4096.Idx) :
    k0_pay12 v28 v30 v31 i
      = IntOp.andi
          (IntOp.andi
            (FloatOps.cmpf (F := Ideal) (φ := .f32) .olt (v28 i) (Ideal.ofBits .f32 0x40400000#32))
            (FloatOps.cmpf (F := Ideal) (φ := .f32) .ogt (v30 i - v31 i) (Ideal.ofBits .f32 0x00000000#32)))
          (FloatOps.cmpf (F := Ideal) (φ := .f32) .olt (v30 i - v31 i) (Ideal.ofBits .f32 0x43400000#32)) := rfl

/-- A row maximum kept as a column and copied back along the row: at `(i, j)` the greatest entry of row `i`. -/
theorem rowTop_keepdims {a b : ℕ} (src : FVec Ideal ⟨2, ![a, b]⟩ .f32) (hr : (⟨2, ![a, b]⟩ : Shape).Reduces [1] ⟨1, ![a]⟩)
    (hs : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ (multiReduction .maximumf [1] ⟨1, ![a]⟩ src 0xFF800000#32 hr (.inl rfl) rfl) hs) hb (ix2 i j)
      = rowTop fun k : Fin b => src (ix2 i k) := by
  rw [Cert.ColumnForms.broadcastTo_a1_ab_apply, Cert.ColumnForms.shapeCast_a_a1_apply, Cert.RowForms.multiReduction_max_rows]
  rfl

/-- A row sum kept as a column: at `(i, u)` the sum of row `i`. -/
theorem rowSum_keepdims {a b : ℕ} (src : FVec Ideal ⟨2, ![a, b]⟩ .f32) (hr : (⟨2, ![a, b]⟩ : Shape).Reduces [1] ⟨1, ![a]⟩)
    (hs : (⟨1, ![a]⟩ : Shape).ShapeCasts ⟨2, ![a, 1]⟩) (i : Fin a) (u : Fin 1) :
    shapeCast ⟨2, ![a, 1]⟩ (multiReduction .add [1] ⟨1, ![a]⟩ src 0x00000000#32 hr (.inl rfl) rfl) hs (ix2 i u)
      = ∑ k : Fin b, src (ix2 i k) := by
  rw [Cert.ColumnForms.shapeCast_a_a1_apply, Cert.RowForms.multiReduction_add_rows]

/-- The softmax of the masked scores along row `q`, at `j`. -/
theorem softmax_apply (v17 v28 v30 v31 : FVec Ideal S256x4096 .f32) (q : Fin 256) (j : Fin 4096) :
    k0_pay13 v17 v28 v30 v31 (ix2 q j)
      = weights (fun k : Fin 4096 => Scalar.select (k0_pay12 v28 v30 v31 (ix2 q k)) (v17 (ix2 q k))
          (Ideal.ofBits .f32 0xCE6E6B28#32)) j := by
  unfold k0_pay13
  try dsimp only
  refine (mulf_apply _ _ _).trans ?_
  unfold weights
  refine congrArg₂ (· * ·) ?_ ?_
  · show Ideal.exp (_ - _) = _
    rw [rowTop_keepdims]
    rfl
  · rw [Cert.ColumnForms.broadcastTo_a1_ab_apply]
    show Ideal.div _ _ = _
    rw [rowSum_keepdims]
    refine congrArg (Ideal.div _) (Finset.sum_congr rfl fun k _ => ?_)
    show Ideal.exp (_ - _) = _
    rw [rowTop_keepdims]
    rfl

/-! ## The four blocks at an entry -/

/-- Row `q`'s masked scores, from the blocks a point loaded: the left features `x0` through the query layer `x5`, `x6`
    against the keys `ks`, masked by the left points `x2` and the right points' coordinate rows `x3`, `x4`. -/
def rowScores (x0 : Vec Ideal S1x256x256 .f32) (x2 : Vec Ideal S1x256x2 .f32) (x3 x4 : Vec Ideal S1x1x4096 .f32)
    (x5 : Vec Ideal S256x256 .f32) (x6 : Vec Ideal S1x256 .f32) (ks : Vec Ideal S4096x256 .f32) (q : Fin 256) : Fin 4096 → EReal :=
  logits (fun d => (∑ c : Fin 256, x0 (ix3 (0 : Fin 1) q c) * x5 (ix2 d c)) + x6 (ix2 (0 : Fin 1) d))
    (fun k d => ks (ix2 k d)) (x2 (ix3 (0 : Fin 1) q (0 : Fin 2))) (x2 (ix3 (0 : Fin 1) q (1 : Fin 2)))
    (fun k => x3 (ix3 (0 : Fin 1) (0 : Fin 1) k)) (fun k => x4 (ix3 (0 : Fin 1) (0 : Fin 1) k))

/-- The mask bit of `(q, j)` is the specification's, of the two points' coordinates. -/
theorem keeps_entry (x2 : Vec Ideal S1x256x2 .f32) (x3 x4 : Vec Ideal S1x1x4096 .f32) (q : Fin 256) (j : Fin 4096) :
    k0_pay12 (k0_pay8 x2 x4) (k0_pay9 x2) (k0_pay10 x3) (ix2 q j)
      = keeps (x2 (ix3 (0 : Fin 1) q (0 : Fin 2))) (x2 (ix3 (0 : Fin 1) q (1 : Fin 2)))
          (x3 (ix3 (0 : Fin 1) (0 : Fin 1) j)) (x4 (ix3 (0 : Fin 1) (0 : Fin 1) j)) := by
  rw [mask_apply, distV_apply, leftU_apply, rightU_apply]
  rfl

/-- The weights of a block: row `q`'s softmax of its masked scores. -/
theorem probs_entry (x0 : Vec Ideal S1x256x256 .f32) (x2 : Vec Ideal S1x256x2 .f32) (x3 x4 : Vec Ideal S1x1x4096 .f32)
    (x5 : Vec Ideal S256x256 .f32) (x6 : Vec Ideal S1x256 .f32) (ks : Vec Ideal S4096x256 .f32) (q : Fin 256) (j : Fin 4096) :
    k0_pay13 (k0_pay6 x0 x5 x6 ks) (k0_pay8 x2 x4) (k0_pay9 x2) (k0_pay10 x3) (ix2 q j)
      = weights (rowScores x0 x2 x3 x4 x5 x6 ks q) j := by
  rw [softmax_apply]
  refine congrArg (fun g => weights g j) (funext fun k => ?_)
  rw [keeps_entry, score_apply]
  rfl

/-- The attention weights, laid out with the leading unit axis. -/
theorem attn_entry (x0 : Vec Ideal S1x256x256 .f32) (x2 : Vec Ideal S1x256x2 .f32) (x3 x4 : Vec Ideal S1x1x4096 .f32)
    (x5 : Vec Ideal S256x256 .f32) (x6 : Vec Ideal S1x256 .f32) (ks : Vec Ideal S4096x256 .f32) (u : Fin 1) (q : Fin 256) (j : Fin 4096) :
    k0_pay14 (k0_pay6 x0 x5 x6 ks) (k0_pay8 x2 x4) (k0_pay9 x2) (k0_pay10 x3) (ix3 u q j)
      = weights (rowScores x0 x2 x3 x4 x5 x6 ks q) j := by
  unfold k0_pay14
  try dsimp only
  rw [shapeCast_ab_1ab_apply, probs_entry]

/-- The output features of a block: the weights against the values, through the last layer. -/
theorem out_entry (vs : Vec Ideal S4096x256 .bf16) (v17 v28 v30 v31 : FVec Ideal S256x4096 .f32)
    (x11 : Vec Ideal S256x256 .f32) (x12 : Vec Ideal S1x256 .f32) (u : Fin 1) (q o : Fin 256) :
    k0_pay15 vs v17 v28 v30 v31 x11 x12 (ix3 u q o)
      = (∑ d : Fin 256, (∑ j : Fin 4096, k0_pay13 v17 v28 v30 v31 (ix2 q j) * vs (ix2 j d)) * x11 (ix2 o d))
          + x12 (ix2 (0 : Fin 1) o) := by
  unfold k0_pay15
  try dsimp only
  rw [shapeCast_ab_1ab_apply]
  refine (addf_apply _ _ _).trans ?_
  rw [PlainProduct.matmul_transposed_apply dot_S256x256_S256x256_S256x256_1_0_0_1_n_n rfl, shapeCast_self,
    broadcastTo_1b_ab_apply]
  refine congrArg (· + _) (Finset.sum_congr rfl fun d _ => ?_)
  refine congrArg (· * _) ?_
  rw [PlainProduct.matmul_of_plain dot_S256x4096_S4096x256_S256x256_1_0_0_1_n_n rfl]
  rfl

/-- The weighted first-coordinate differences of a block: row `q`'s sum of weight times difference. -/
theorem disp_entry (v17 v28 v30 v31 : FVec Ideal S256x4096 .f32) (u : Fin 1) (q : Fin 256) (z : Fin 1) :
    k0_pay1 (k0_pay16 v17 v28 v30 v31) (ix3 u q z)
      = ∑ j : Fin 4096, k0_pay13 v17 v28 v30 v31 (ix2 q j) * (v30 (ix2 q j) - v31 (ix2 q j)) := by
  unfold k0_pay1
  try dsimp only
  rw [shapeCast_ab_1ab_apply, rowSum_keepdims]
  rfl

/-- The "some pair kept" flags of a block: row `q`'s bits, any of them set. -/
theorem conf_entry (v40 : IVec S256x4096 1) (u : Fin 1) (q : Fin 256) (z : Fin 1) :
    k0_pay2 (F := Ideal) v40 (ix3 u q z) = anySet fun j : Fin 4096 => v40 (ix2 q j) := by
  unfold k0_pay2
  try dsimp only
  rw [shapeCast_ab_1ab_apply, sitofp_apply, extui_apply, Cert.ColumnForms.shapeCast_a_a1_apply, cmpf_apply,
    Cert.RowForms.multiReduction_max_rows]
  rfl

/-- The output features in terms of the row's weights. -/
theorem outBlk_entry (x0 : Vec Ideal S1x256x256 .f32) (x2 : Vec Ideal S1x256x2 .f32) (x3 x4 : Vec Ideal S1x1x4096 .f32)
    (x5 : Vec Ideal S256x256 .f32) (x6 : Vec Ideal S1x256 .f32) (ks : Vec Ideal S4096x256 .f32) (vs : Vec Ideal S4096x256 .bf16)
    (x11 : Vec Ideal S256x256 .f32) (x12 : Vec Ideal S1x256 .f32) (u : Fin 1) (q o : Fin 256) :
    k0_pay15 vs (k0_pay6 x0 x5 x6 ks) (k0_pay8 x2 x4) (k0_pay9 x2) (k0_pay10 x3) x11 x12 (ix3 u q o)
      = (∑ d : Fin 256, (∑ j : Fin 4096, weights (rowScores x0 x2 x3 x4 x5 x6 ks q) j * vs (ix2 j d)) * x11 (ix2 o d))
          + x12 (ix2 (0 : Fin 1) o) := by
  rw [out_entry]
  refine congrArg (· + _) (Finset.sum_congr rfl fun d _ => ?_)
  refine congrArg (· * _) (Finset.sum_congr rfl fun j _ => ?_)
  rw [probs_entry]

/-- The weighted differences in terms of the row's weights. -/
theorem dispBlk_entry (x0 : Vec Ideal S1x256x256 .f32) (x2 : Vec Ideal S1x256x2 .f32) (x3 x4 : Vec Ideal S1x1x4096 .f32)
    (x5 : Vec Ideal S256x256 .f32) (x6 : Vec Ideal S1x256 .f32) (ks : Vec Ideal S4096x256 .f32) (u : Fin 1) (q : Fin 256) (z : Fin 1) :
    k0_pay1 (k0_pay16 (k0_pay6 x0 x5 x6 ks) (k0_pay8 x2 x4) (k0_pay9 x2) (k0_pay10 x3)) (ix3 u q z)
      = ∑ j : Fin 4096, weights (rowScores x0 x2 x3 x4 x5 x6 ks q) j
          * (x2 (ix3 (0 : Fin 1) q (0 : Fin 2)) - x3 (ix3 (0 : Fin 1) (0 : Fin 1) j)) := by
  rw [disp_entry]
  refine Finset.sum_congr rfl fun j _ => ?_
  rw [probs_entry, leftU_apply, rightU_apply]

/-- The flags in terms of the specification's mask bits. -/
theorem confBlk_entry (x2 : Vec Ideal S1x256x2 .f32) (x3 x4 : Vec Ideal S1x1x4096 .f32) (u : Fin 1) (q : Fin 256) (z : Fin 1) :
    k0_pay2 (F := Ideal) (k0_pay12 (k0_pay8 x2 x4) (k0_pay9 x2) (k0_pay10 x3)) (ix3 u q z)
      = anySet fun j : Fin 4096 => keeps (x2 (ix3 (0 : Fin 1) q (0 : Fin 2))) (x2 (ix3 (0 : Fin 1) q (1 : Fin 2)))
          (x3 (ix3 (0 : Fin 1) (0 : Fin 1) j)) (x4 (ix3 (0 : Fin 1) (0 : Fin 1) j)) := by
  rw [conf_entry]
  refine congrArg anySet (funext fun j => ?_)
  rw [keeps_entry]

end Cert.KernelIdeal.Entries

end
-- ==== Proof.Whole.lean ====
/-
  From the blocks to the arrays: what the kernel's four result arrays hold after the run.

  The grid visits the 64 points batch by batch. The first point of a batch projects the batch's right features to
  keys and values and every later point of the batch finds them where the first one left them, so by induction on
  the point the carried keys and values are, at every point, the projections of the point's own batch. Each of the
  four output blocks a point writes back is therefore the specification's array read through the block: the block's
  row `q` is left row `256 · (t mod 16) + q` of batch `t / 16`, whose weights depend on that row's query, on the batch's
  keys, and on the two point sets' coordinates. The 64 blocks of each output tile its array, so each array ends
  holding the specification's function of the argument arrays.
-/
import proofs.«126372_j19327352832529_2_alg».proof.Proof.Blocks
import proofs.«126372_j19327352832529_2_alg».proof.Proof.Pieces
import proofs.«126372_j19327352832529_2_alg».proof.Proof.Entries

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.BandAttention Cert.KernelIdeal.Blocks Cert.KernelIdeal.Pieces Cert.KernelIdeal.Entries
open Idealize.ShloMosaic.Pipeline (Dat)
open scoped BigOperators

variable (m : (ℓ : Loc nD τ sig) → Buf (Elt Ideal) ℓ) (ρ : Dev nD → PrngReg) (c : Dev nD)

/-- The projected keys of batch `b`, as the buffer the points of the batch share. -/
def keysOf (b : Fin 4) : Vec Ideal S4096x256 .f32 := fun i => lin (m ((c : Thread nD τ).loc main_arg1)) (m ((c : Thread nD τ).loc main_arg6)) (m ((c : Thread nD τ).loc main_arg7)) b (i 0) (i 1)

/-- The projected values of batch `b`. -/
def valsOf (b : Fin 4) : Vec Ideal S4096x256 .bf16 := fun i => lin (m ((c : Thread nD τ).loc main_arg1)) (m ((c : Thread nD τ).loc main_arg8)) (m ((c : Thread nD τ).loc main_arg9)) b (i 0) (i 1)

/-- What a first point of a batch stores as keys is the batch's projected keys. -/
theorem keys_block (t : Fin cfg0.N) : k0_pay4 (iblk m c 1 t) (iblk m c 7 t) (iblk m c 8 t) = keysOf m c (bat t) := by
  funext i
  obtain ⟨r, d, rfl⟩ : ∃ (r : Fin 4096) (d : Fin 256), i = ix2 r d := ⟨i 0, i 1, eq_ix2 i⟩
  refine (keys_apply (iblk m c 1 t) (iblk m c 7 t) (iblk m c 8 t) r d).trans ?_
  show _ = lin _ _ _ (bat t) r d
  unfold lin
  simp only [rightFeat m c t, wK m c t, bK m c t]

/-- The same for the values. -/
theorem vals_block (t : Fin cfg0.N) : k0_pay5 (iblk m c 1 t) (iblk m c 9 t) (iblk m c 10 t) = valsOf m c (bat t) := by
  funext i
  obtain ⟨r, d, rfl⟩ : ∃ (r : Fin 4096) (d : Fin 256), i = ix2 r d := ⟨i 0, i 1, eq_ix2 i⟩
  refine (values_apply (iblk m c 1 t) (iblk m c 9 t) (iblk m c 10 t) r d).trans ?_
  show _ = lin _ _ _ (bat t) r d
  unfold lin
  simp only [rightFeat m c t, wV m c t, bV m c t]

/-- A point that is not the first of its batch has the batch of the point before. -/
theorem bat_pred (t : Fin cfg0.N) (h0 : ¬t.val % 16 = 0) (h : t.val - 1 < cfg0.N) : bat ⟨t.val - 1, h⟩ = bat t := by
  apply Fin.ext
  show (t.val - 1) / 16 = t.val / 16
  omega

/-- THE CARRIED BUFFERS: after any point they hold the projected keys and values of the point's batch. -/
theorem carried : ∀ (n : ℕ) (hn : n < cfg0.N),
    (outsAt0 m c n hn).2.2.2.2.1 = keysOf m c (bat ⟨n, hn⟩) ∧ (outsAt0 m c n hn).2.2.2.2.2 = valsOf m c (bat ⟨n, hn⟩) := by
  intro n
  induction n with
  | zero =>
    intro hn
    rw [outsAt0_A m c ⟨0, hn⟩ rfl]
    dsimp only
    rw [sout0_A_0_eq, sout0_A_1_eq, keys_block, vals_block]
    exact ⟨rfl, rfl⟩
  | succ k ih =>
    intro hn
    by_cases h0 : (k + 1) % 16 = 0
    · rw [outsAt0_A m c ⟨k + 1, hn⟩ h0]
      dsimp only
      rw [sout0_A_0_eq, sout0_A_1_eq, keys_block, vals_block]
      exact ⟨rfl, rfl⟩
    · rw [outsAt0_B m c ⟨k + 1, hn⟩ h0]
      dsimp only
      have hk : k < cfg0.N := Nat.lt_of_succ_lt hn
      have hb : bat ⟨k, hk⟩ = bat ⟨k + 1, hn⟩ := by
        apply Fin.ext
        show k / 16 = (k + 1) / 16
        omega
      refine ⟨?_, ?_⟩
      · show (outsAt0 m c k _).2.2.2.2.1 = _
        rw [(ih hk).1, hb]
      · show (outsAt0 m c k _).2.2.2.2.2 = _
        rw [(ih hk).2, hb]

/-! ## What each point leaves in its four output blocks -/

theorem attn_at (t : Fin cfg0.N) :
    (outsAt0 m c t.val t.isLt).1 = attnBlk (iblk m c 0 t) (iblk m c 2 t) (iblk m c 3 t) (iblk m c 4 t) (iblk m c 5 t) (iblk m c 6 t) (keysOf m c (bat t)) := by
  by_cases h0 : t.val % 16 = 0
  · rw [outsAt0_A m c t h0]; dsimp only; rw [out0_A_13_eq, keys_block]
  · rw [outsAt0_B m c t h0]; dsimp only; rw [out0_B_13_eq, (carried m c _ _).1, bat_pred t h0]

theorem out_at (t : Fin cfg0.N) :
    (outsAt0 m c t.val t.isLt).2.1 = outBlk (iblk m c 0 t) (iblk m c 2 t) (iblk m c 3 t) (iblk m c 4 t) (iblk m c 5 t) (iblk m c 6 t) (iblk m c 11 t) (iblk m c 12 t) (keysOf m c (bat t)) (valsOf m c (bat t)) := by
  by_cases h0 : t.val % 16 = 0
  · rw [outsAt0_A m c t h0]; dsimp only; rw [out0_A_14_eq, keys_block, vals_block]
  · rw [outsAt0_B m c t h0]; dsimp only; rw [out0_B_14_eq, (carried m c _ _).1, (carried m c _ _).2, bat_pred t h0]

theorem disp_at (t : Fin cfg0.N) :
    (outsAt0 m c t.val t.isLt).2.2.1 = dispBlk (iblk m c 0 t) (iblk m c 2 t) (iblk m c 3 t) (iblk m c 4 t) (iblk m c 5 t) (iblk m c 6 t) (keysOf m c (bat t)) := by
  by_cases h0 : t.val % 16 = 0
  · rw [outsAt0_A m c t h0]; dsimp only; rw [out0_A_15_eq, keys_block]
  · rw [outsAt0_B m c t h0]; dsimp only; rw [out0_B_15_eq, (carried m c _ _).1, bat_pred t h0]

theorem conf_at (t : Fin cfg0.N) :
    (outsAt0 m c t.val t.isLt).2.2.2.1 = confBlk (F := Ideal) (iblk m c 2 t) (iblk m c 3 t) (iblk m c 4 t) := by
  by_cases h0 : t.val % 16 = 0
  · rw [outsAt0_A m c t h0]; dsimp only; rw [out0_A_16_eq]
  · rw [outsAt0_B m c t h0]; dsimp only; rw [out0_B_16_eq]

/-! ## The four result arrays -/

/-- Row `q` of point `t`'s block has the masked scores of left row `256 · (t mod 16) + q` of batch `t / 16`. -/
theorem scores_at (t : Fin cfg0.N) (q : Fin 256) :
    rowScores (iblk m c 0 t) (iblk m c 2 t) (iblk m c 3 t) (iblk m c 4 t) (iblk m c 5 t) (iblk m c 6 t) (keysOf m c (bat t)) q = score (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (bat t) (row t q) := by
  unfold rowScores score
  simp only [leftFeat m c t, leftPts m c t, rightPtsU m c t, rightPtsV m c t, wQ m c t, bQ m c t]
  rfl

theorem flushed13_eq (t : Fin cfg0.N) :
    (dats m 0 c).flushed 13 t = ((cfg0.win 13).blk t).view.read (Elt Ideal) (attn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  rw [Cert.KernelIdeal.Value.flushed13, attn_at]
  obtain ⟨o13, o14, o15, o16⟩ := idx_out t
  funext y
  obtain ⟨u, q, j, rfl⟩ : ∃ (u : Fin 1) (q : Fin 256) (j : Fin 4096), y = ix3 u q j := ⟨y 0, y 1, y 2, eq_ix3 y⟩
  rw [View.read_apply]
  have hi : ((cfg0.win 13).blk t).view.emb (ix3 u q j) = ix3 (bat t) (row t q) j := by
    funext a; apply Fin.ext
    match a with
    | ⟨0, _⟩ => show win0_13.index t (0 : Fin 3) * 1 + 1 * u.val = t.val / 16; omega
    | ⟨1, _⟩ => show win0_13.index t (1 : Fin 3) * 256 + 1 * q.val = 256 * (t.val % 16) + q.val; omega
    | ⟨2, _⟩ => show win0_13.index t (2 : Fin 3) * 4096 + 1 * j.val = j.val; omega
  rw [hi]
  show attnBlk (iblk m c 0 t) (iblk m c 2 t) (iblk m c 3 t) (iblk m c 4 t) (iblk m c 5 t) (iblk m c 6 t) (keysOf m c (bat t)) (ix3 u q j) = attn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix3 (bat t) (row t q) j)
  rw [attn_apply]
  unfold attnBlk
  refine (attn_entry _ _ _ _ _ _ _ u q j).trans ?_
  rw [scores_at]

theorem flushed14_eq (t : Fin cfg0.N) :
    (dats m 0 c).flushed 14 t = ((cfg0.win 14).blk t).view.read (Elt Ideal) (outp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) := by
  rw [Cert.KernelIdeal.Value.flushed14, out_at]
  obtain ⟨o13, o14, o15, o16⟩ := idx_out t
  funext y
  obtain ⟨u, q, j, rfl⟩ : ∃ (u : Fin 1) (q : Fin 256) (j : Fin 256), y = ix3 u q j := ⟨y 0, y 1, y 2, eq_ix3 y⟩
  rw [View.read_apply]
  have hi : ((cfg0.win 14).blk t).view.emb (ix3 u q j) = ix3 (bat t) (row t q) j := by
    funext a; apply Fin.ext
    match a with
    | ⟨0, _⟩ => show win0_14.index t (0 : Fin 3) * 1 + 1 * u.val = t.val / 16; omega
    | ⟨1, _⟩ => show win0_14.index t (1 : Fin 3) * 256 + 1 * q.val = 256 * (t.val % 16) + q.val; omega
    | ⟨2, _⟩ => show win0_14.index t (2 : Fin 3) * 256 + 1 * j.val = j.val; omega
  rw [hi]
  show outBlk (iblk m c 0 t) (iblk m c 2 t) (iblk m c 3 t) (iblk m c 4 t) (iblk m c 5 t) (iblk m c 6 t) (iblk m c 11 t) (iblk m c 12 t) (keysOf m c (bat t)) (valsOf m c (bat t)) (ix3 u q j)
    = outp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (ix3 (bat t) (row t q) j)
  rw [outp_apply]
  unfold outBlk
  refine (outBlk_entry _ _ _ _ _ _ _ _ _ _ u q j).trans ?_
  rw [scores_at]
  simp only [wM m c t, bM m c t]
  rfl

theorem flushed15_eq (t : Fin cfg0.N) :
    (dats m 0 c).flushed 15 t = ((cfg0.win 15).blk t).view.read (Elt Ideal) (disp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  rw [Cert.KernelIdeal.Value.flushed15, disp_at]
  obtain ⟨o13, o14, o15, o16⟩ := idx_out t
  funext y
  obtain ⟨u, q, j, rfl⟩ : ∃ (u : Fin 1) (q : Fin 256) (j : Fin 1), y = ix3 u q j := ⟨y 0, y 1, y 2, eq_ix3 y⟩
  rw [View.read_apply]
  have hi : ((cfg0.win 15).blk t).view.emb (ix3 u q j) = ix3 (bat t) (row t q) j := by
    funext a; apply Fin.ext
    match a with
    | ⟨0, _⟩ => show win0_15.index t (0 : Fin 3) * 1 + 1 * u.val = t.val / 16; omega
    | ⟨1, _⟩ => show win0_15.index t (1 : Fin 3) * 256 + 1 * q.val = 256 * (t.val % 16) + q.val; omega
    | ⟨2, _⟩ => show win0_15.index t (2 : Fin 3) * 1 + 1 * j.val = j.val; omega
  rw [hi]
  show dispBlk (iblk m c 0 t) (iblk m c 2 t) (iblk m c 3 t) (iblk m c 4 t) (iblk m c 5 t) (iblk m c 6 t) (keysOf m c (bat t)) (ix3 u q j) = disp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix3 (bat t) (row t q) j)
  rw [disp_apply]
  unfold dispBlk
  refine (dispBlk_entry _ _ _ _ _ _ _ u q j).trans ?_
  rw [scores_at]
  simp only [leftPts m c t, rightPtsU m c t]

theorem flushed16_eq (t : Fin cfg0.N) :
    (dats m 0 c).flushed 16 t = ((cfg0.win 16).blk t).view.read (Elt Ideal) (conf (m ((c : Thread nD τ).loc main_arg2)) (m ((c : Thread nD τ).loc main_arg3))) := by
  rw [Cert.KernelIdeal.Value.flushed16, conf_at]
  obtain ⟨o13, o14, o15, o16⟩ := idx_out t
  funext y
  obtain ⟨u, q, j, rfl⟩ : ∃ (u : Fin 1) (q : Fin 256) (j : Fin 1), y = ix3 u q j := ⟨y 0, y 1, y 2, eq_ix3 y⟩
  rw [View.read_apply]
  have hi : ((cfg0.win 16).blk t).view.emb (ix3 u q j) = ix3 (bat t) (row t q) j := by
    funext a; apply Fin.ext
    match a with
    | ⟨0, _⟩ => show win0_16.index t (0 : Fin 3) * 1 + 1 * u.val = t.val / 16; omega
    | ⟨1, _⟩ => show win0_16.index t (1 : Fin 3) * 256 + 1 * q.val = 256 * (t.val % 16) + q.val; omega
    | ⟨2, _⟩ => show win0_16.index t (2 : Fin 3) * 1 + 1 * j.val = j.val; omega
  rw [hi]
  show confBlk (F := Ideal) (iblk m c 2 t) (iblk m c 3 t) (iblk m c 4 t) (ix3 u q j) = conf (m ((c : Thread nD τ).loc main_arg2)) (m ((c : Thread nD τ).loc main_arg3)) (ix3 (bat t) (row t q) j)
  rw [conf_apply]
  unfold confBlk
  refine (confBlk_entry _ _ _ u q j).trans ?_
  simp only [leftPts m c t, rightPtsU m c t, rightPtsV m c t]

theorem mem_blk13 (t : Fin cfg0.N) (i : S4x4096x4096.Idx) :
    i ∈ ((cfg0.win 13).blk t).view.set ↔ ∀ a : Fin 3, win0_13.index t a * S1x256x4096.size a ≤ (i a).val
      ∧ (i a).val < win0_13.index t a * S1x256x4096.size a + S1x256x4096.size a := by
  show i ∈ ((View.whole main_v10_0).slice (win0_13.rect t)).set ↔ _
  rw [View.set_slice_whole, Rect.mem_set_unit]
  exact Iff.rfl

/-- Every index of the array lies in the block of the point of its batch and its band of 256 rows. -/
theorem cover13 (i : S4x4096x4096.Idx) : ∃ t : Fin cfg0.N, (cfg0.win 13).flush t = true ∧ i ∈ ((cfg0.win 13).blk t).view.set := by
  have hi0 : (i 0).val < 4 := (i 0).isLt
  have hi1 : (i 1).val < 4096 := (i 1).isLt
  have hi2 : (i 2).val < 4096 := (i 2).isLt
  let t : Fin cfg0.N := ⟨16 * (i 0).val + (i 1).val / 256, by rw [N64]; omega⟩
  have ht : t.val = 16 * (i 0).val + (i 1).val / 256 := rfl
  obtain ⟨o13, o14, o15, o16⟩ := idx_out t
  refine ⟨t, flush0_13 t, ?_⟩
  rw [mem_blk13]
  intro a
  match a with
  | ⟨0, _⟩ => show win0_13.index t (0 : Fin 3) * 1 ≤ (i 0).val ∧ (i 0).val < win0_13.index t (0 : Fin 3) * 1 + 1; omega
  | ⟨1, _⟩ => show win0_13.index t (1 : Fin 3) * 256 ≤ (i 1).val ∧ (i 1).val < win0_13.index t (1 : Fin 3) * 256 + 256; omega
  | ⟨2, _⟩ => show win0_13.index t (2 : Fin 3) * 4096 ≤ (i 2).val ∧ (i 2).val < win0_13.index t (2 : Fin 3) * 4096 + 4096; omega

theorem mem_blk14 (t : Fin cfg0.N) (i : S4x4096x256.Idx) :
    i ∈ ((cfg0.win 14).blk t).view.set ↔ ∀ a : Fin 3, win0_14.index t a * S1x256x256.size a ≤ (i a).val
      ∧ (i a).val < win0_14.index t a * S1x256x256.size a + S1x256x256.size a := by
  show i ∈ ((View.whole main_v10_1).slice (win0_14.rect t)).set ↔ _
  rw [View.set_slice_whole, Rect.mem_set_unit]
  exact Iff.rfl

/-- Every index of the array lies in the block of the point of its batch and its band of 256 rows. -/
theorem cover14 (i : S4x4096x256.Idx) : ∃ t : Fin cfg0.N, (cfg0.win 14).flush t = true ∧ i ∈ ((cfg0.win 14).blk t).view.set := by
  have hi0 : (i 0).val < 4 := (i 0).isLt
  have hi1 : (i 1).val < 4096 := (i 1).isLt
  have hi2 : (i 2).val < 256 := (i 2).isLt
  let t : Fin cfg0.N := ⟨16 * (i 0).val + (i 1).val / 256, by rw [N64]; omega⟩
  have ht : t.val = 16 * (i 0).val + (i 1).val / 256 := rfl
  obtain ⟨o13, o14, o15, o16⟩ := idx_out t
  refine ⟨t, flush0_14 t, ?_⟩
  rw [mem_blk14]
  intro a
  match a with
  | ⟨0, _⟩ => show win0_14.index t (0 : Fin 3) * 1 ≤ (i 0).val ∧ (i 0).val < win0_14.index t (0 : Fin 3) * 1 + 1; omega
  | ⟨1, _⟩ => show win0_14.index t (1 : Fin 3) * 256 ≤ (i 1).val ∧ (i 1).val < win0_14.index t (1 : Fin 3) * 256 + 256; omega
  | ⟨2, _⟩ => show win0_14.index t (2 : Fin 3) * 256 ≤ (i 2).val ∧ (i 2).val < win0_14.index t (2 : Fin 3) * 256 + 256; omega

theorem mem_blk15 (t : Fin cfg0.N) (i : S4x4096x1.Idx) :
    i ∈ ((cfg0.win 15).blk t).view.set ↔ ∀ a : Fin 3, win0_15.index t a * S1x256x1.size a ≤ (i a).val
      ∧ (i a).val < win0_15.index t a * S1x256x1.size a + S1x256x1.size a := by
  show i ∈ ((View.whole main_v10_2).slice (win0_15.rect t)).set ↔ _
  rw [View.set_slice_whole, Rect.mem_set_unit]
  exact Iff.rfl

/-- Every index of the array lies in the block of the point of its batch and its band of 256 rows. -/
theorem cover15 (i : S4x4096x1.Idx) : ∃ t : Fin cfg0.N, (cfg0.win 15).flush t = true ∧ i ∈ ((cfg0.win 15).blk t).view.set := by
  have hi0 : (i 0).val < 4 := (i 0).isLt
  have hi1 : (i 1).val < 4096 := (i 1).isLt
  have hi2 : (i 2).val < 1 := (i 2).isLt
  let t : Fin cfg0.N := ⟨16 * (i 0).val + (i 1).val / 256, by rw [N64]; omega⟩
  have ht : t.val = 16 * (i 0).val + (i 1).val / 256 := rfl
  obtain ⟨o13, o14, o15, o16⟩ := idx_out t
  refine ⟨t, flush0_15 t, ?_⟩
  rw [mem_blk15]
  intro a
  match a with
  | ⟨0, _⟩ => show win0_15.index t (0 : Fin 3) * 1 ≤ (i 0).val ∧ (i 0).val < win0_15.index t (0 : Fin 3) * 1 + 1; omega
  | ⟨1, _⟩ => show win0_15.index t (1 : Fin 3) * 256 ≤ (i 1).val ∧ (i 1).val < win0_15.index t (1 : Fin 3) * 256 + 256; omega
  | ⟨2, _⟩ => show win0_15.index t (2 : Fin 3) * 1 ≤ (i 2).val ∧ (i 2).val < win0_15.index t (2 : Fin 3) * 1 + 1; omega

theorem mem_blk16 (t : Fin cfg0.N) (i : S4x4096x1.Idx) :
    i ∈ ((cfg0.win 16).blk t).view.set ↔ ∀ a : Fin 3, win0_16.index t a * S1x256x1.size a ≤ (i a).val
      ∧ (i a).val < win0_16.index t a * S1x256x1.size a + S1x256x1.size a := by
  show i ∈ ((View.whole main_v10_3).slice (win0_16.rect t)).set ↔ _
  rw [View.set_slice_whole, Rect.mem_set_unit]
  exact Iff.rfl

/-- Every index of the array lies in the block of the point of its batch and its band of 256 rows. -/
theorem cover16 (i : S4x4096x1.Idx) : ∃ t : Fin cfg0.N, (cfg0.win 16).flush t = true ∧ i ∈ ((cfg0.win 16).blk t).view.set := by
  have hi0 : (i 0).val < 4 := (i 0).isLt
  have hi1 : (i 1).val < 4096 := (i 1).isLt
  have hi2 : (i 2).val < 1 := (i 2).isLt
  let t : Fin cfg0.N := ⟨16 * (i 0).val + (i 1).val / 256, by rw [N64]; omega⟩
  have ht : t.val = 16 * (i 0).val + (i 1).val / 256 := rfl
  obtain ⟨o13, o14, o15, o16⟩ := idx_out t
  refine ⟨t, flush0_16 t, ?_⟩
  rw [mem_blk16]
  intro a
  match a with
  | ⟨0, _⟩ => show win0_16.index t (0 : Fin 3) * 1 ≤ (i 0).val ∧ (i 0).val < win0_16.index t (0 : Fin 3) * 1 + 1; omega
  | ⟨1, _⟩ => show win0_16.index t (1 : Fin 3) * 256 ≤ (i 1).val ∧ (i 1).val < win0_16.index t (1 : Fin 3) * 256 + 256; omega
  | ⟨2, _⟩ => show win0_16.index t (2 : Fin 3) * 1 ≤ (i 2).val ∧ (i 2).val < win0_16.index t (2 : Fin 3) * 1 + 1; omega

/-- The weights array after the run. -/
theorem final13 : (dats m 0 c).arrAt 13 cfg0.N = attn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dats m 0 c).arrAt_eq_of_cover 13 _ (fun t _ => flushed13_eq m c t) (cover13)

/-- The output features after the run. -/
theorem final14 : (dats m 0 c).arrAt 14 cfg0.N = outp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (dats m 0 c).arrAt_eq_of_cover 14 _ (fun t _ => flushed14_eq m c t) (cover14)

/-- The weighted differences after the run. -/
theorem final15 : (dats m 0 c).arrAt 15 cfg0.N = disp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dats m 0 c).arrAt_eq_of_cover 15 _ (fun t _ => flushed15_eq m c t) (cover15)

/-- The flags after the run. -/
theorem final16 : (dats m 0 c).arrAt 16 cfg0.N = conf (m ((c : Thread nD τ).loc main_arg2)) (m ((c : Thread nD τ).loc main_arg3)) :=
  (dats m 0 c).arrAt_eq_of_cover 16 _ (fun t _ => flushed16_eq m c t) (cover16)

/-- THE KERNEL'S RUN: every weakly fair execution ends with the four result arrays at the specification's functions of
    the argument arrays, the arguments unchanged. -/
theorem run : θ_run defs (onTc (τ := τ) (main (F := Ideal))) ⟨m, fun _ => 0, ρ⟩ fun r => ∀ c : Dev nD,
      r.2.mem ((c : Thread nD τ).loc main_v10_1) = outp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c : Thread nD τ).loc main_v10_2) = disp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v10_3) = conf (m ((c : Thread nD τ).loc main_arg2)) (m ((c : Thread nD τ).loc main_arg3))
      ∧ r.2.mem ((c : Thread nD τ).loc main_v10_0) = attn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).2.1.trans (final14 m c), (h c).2.2.1.trans (final15 m c),
      (h c).2.2.2.1.trans (final16 m c), (h c).1.trans (final13 m c), (h c).2.2.2.2⟩)
    (Cert.KernelIdeal.Value.run_blocks m ρ)

end Cert.KernelIdeal.Whole

end
-- ==== Proof.LibLastAxis.lean ====
/-
  Host reductions of a stack of matrices along the last axis, read at an index.

  Reducing an array `[a, b, c]` along its last axis gives a matrix `[a, b]` whose entry `(i, j)` depends on the fibre
  `(i, j, ·)` alone: for a maximum it is the fold of `max` over the fibre from the initial value, for a disjunction of
  bits the fold of `or`. The index of the array that reduces to `(i, j)` and has `k` on the last axis is `(i, j, k)`.
-/
import Idealize.ShloMosaic.PureOps.Ideal.Laws
import Idealize.ShloMosaic.PureOps.Reduce
import Idealize.ShloMosaic.Lib.Pipeline.Value
import Idealize.ShloMosaic.Lib.ValueIdx

noncomputable section

namespace Cert.LastAxis

open Idealize.ShloMosaic Idealize.ShloMosaic.ValueIdx

/-- The index that reduces to `(i, j)` along the last axis and has `k` there is `(i, j, k)`. -/
theorem lift_last {a b c : ℕ} (h : (⟨3, ![a, b, c]⟩ : Shape).Reduces [2] ⟨2, ![a, b]⟩) (i : Fin a) (j : Fin b)
    (k : Fin ((⟨3, ![a, b, c]⟩ : Shape).size 2)) : h.lift (ix2 i j) k = ix3 i j (⟨k.val, k.isLt⟩ : Fin c) := by
  funext d; apply Fin.ext
  match d with
  | ⟨0, _⟩ => rfl
  | ⟨1, _⟩ => rfl
  | ⟨2, _⟩ => rfl

/-- A host maximum along the last axis, at `(i, j)`: the fold of `max` over the fibre from the initial value. -/
theorem reduceMax_last {a b c : ℕ} {u : Shape} (x : FVec Ideal ⟨3, ![a, b, c]⟩ .f32) (init : u.Idx → Ideal .f32)
    (h' : (⟨3, ![a, b, c]⟩ : Shape).ReducesTo [2] ⟨2, ![a, b]⟩) (h : (⟨3, ![a, b, c]⟩ : Shape).Reduces [2] ⟨2, ![a, b]⟩)
    (hu : 0 < u.numel) (i : Fin a) (j : Fin b) :
    Host.reduce (FloatOps.maximumf (F := Ideal) (φ := .f32)) x init h' hu (ix2 i j)
      = (Finset.univ : Finset (Fin c)).fold max (init (Shape.Idx.first hu)) (fun k => x (ix3 i j k)) := by
  have hf : (FloatOps.maximumf (F := Ideal) (φ := .f32)) = (max : EReal → EReal → EReal) := rfl
  rw [hf, Host.reduce_eq_fold_single (max : EReal → EReal → EReal) x _ h' h hu (ix2 i j)]
  exact congrArg (fun f => Finset.fold max (init (Shape.Idx.first hu)) f (Finset.univ : Finset (Fin c)))
    (funext fun k => congrArg x (lift_last h i j k))

/-- A host disjunction of bits along the last axis, at `(i, j)`: the fold of `or` over the fibre. -/
theorem reduceOr_last {a b c : ℕ} {u : Shape} (p : IVec ⟨3, ![a, b, c]⟩ 1) (init : u.Idx → BitVec 1)
    (h' : (⟨3, ![a, b, c]⟩ : Shape).ReducesTo [2] ⟨2, ![a, b]⟩) (h : (⟨3, ![a, b, c]⟩ : Shape).Reduces [2] ⟨2, ![a, b]⟩)
    (hu : 0 < u.numel) (i : Fin a) (j : Fin b) :
    Host.reduce (IntOp.ori (w := 1)) p init h' hu (ix2 i j)
      = (Finset.univ : Finset (Fin c)).fold IntOp.ori (init (Shape.Idx.first hu)) (fun k => p (ix3 i j k)) := by
  rw [Host.reduce_eq_fold_single (IntOp.ori (w := 1)) p _ h' h hu (ix2 i j)]
  exact congrArg (fun f => Finset.fold IntOp.ori (init (Shape.Idx.first hu)) f (Finset.univ : Finset (Fin c)))
    (funext fun k => congrArg p (lift_last h i j k))

end Cert.LastAxis

end
-- ==== Proof.RefWhole.lean ====
/-
  The reference program, read as the specification.

  The reference computes the whole arrays one operation at a time: the three projections, the two coordinate
  differences spread over [4, 4096, 4096], the mask, the scores divided by sixteen, the fill, a softmax along the
  last axis spelled as a quotient by the row total, and the four results. Read at an index `(b, n, j)` every stage is
  the specification's function of the argument arrays. Two steps are not mere re-indexing: dividing by sixteen is
  multiplying by one sixteenth, and the quotient by the row total is the product with its reciprocal because the
  total of a row of real scores is not zero; the maximum against minus infinity that the softmax carries is the
  maximum itself. The flag of a row is the disjunction of its mask bits read as a number.
-/
import proofs.«126372_j19327352832529_2_alg».proof.Proof.Gen.ReferenceIdeal.Read
import proofs.«126372_j19327352832529_2_alg».proof.Proof.Spec
import proofs.«126372_j19327352832529_2_alg».proof.Proof.LibPointRows
import proofs.«126372_j19327352832529_2_alg».proof.Proof.LibLastAxis

set_option maxRecDepth 16384

noncomputable section

namespace Cert.ReferenceIdeal.Whole

open Cert.ReferenceIdeal Cert.ReferenceIdeal.Gen Cert.ReferenceIdeal.Read Idealize.ShloMosaic Idealize.ShloMosaic.ValueIdx
open Cert.BandAttention
open scoped BigOperators

local macro "idx1" : tactic => `(tactic| (funext a; match a with | ⟨0, _⟩ => rfl))
local macro "idx2" : tactic => `(tactic| (funext a; match a with | ⟨0, _⟩ => rfl | ⟨1, _⟩ => rfl))
local macro "idx3" : tactic => `(tactic| (funext a; match a with | ⟨0, _⟩ => rfl | ⟨1, _⟩ => rfl | ⟨2, _⟩ => rfl))

/-! ## The three projections -/

/-- The projected left features. -/
theorem query_entry (x0 : (⟨S4x4096x256, .f32⟩ : BufTy).Contents (Elt Ideal)) (x4 : (⟨S256x256, .f32⟩ : BufTy).Contents (Elt Ideal)) (x5 : (⟨S256, .f32⟩ : BufTy).Contents (Elt Ideal)) (b : Fin 4) (n : Fin 4096) (d : Fin 256) :
    val_main_v3 (F := Ideal) x0 x4 x5 (ix3 b n d) = lin x0 x4 x5 b n d := by
  have e1 : ∀ k, lidx_main_v0 (ix3 b n d) k = ix3 b n k := fun k => by idx3
  have e2 : ∀ k, ridx_main_v0 (ix3 b n d) k = ix2 d k := fun k => by idx2
  have e3 : idx_main_v1 (idx_main_v2 (ix3 b n d)) = ix1 d := by idx1
  rw [val_main_v3_apply, val_main_v0_apply, val_main_v2_apply, val_main_v1_apply, e3]
  simp only [e1, e2]
  rfl

/-- The projected keys. -/
theorem key_entry (x1 : (⟨S4x4096x256, .f32⟩ : BufTy).Contents (Elt Ideal)) (x6 : (⟨S256x256, .f32⟩ : BufTy).Contents (Elt Ideal)) (x7 : (⟨S256, .f32⟩ : BufTy).Contents (Elt Ideal)) (b : Fin 4) (n : Fin 4096) (d : Fin 256) :
    val_main_v7 (F := Ideal) x1 x6 x7 (ix3 b n d) = lin x1 x6 x7 b n d := by
  have e1 : ∀ k, lidx_main_v4 (ix3 b n d) k = ix3 b n k := fun k => by idx3
  have e2 : ∀ k, ridx_main_v4 (ix3 b n d) k = ix2 d k := fun k => by idx2
  have e3 : idx_main_v5 (idx_main_v6 (ix3 b n d)) = ix1 d := by idx1
  rw [val_main_v7_apply, val_main_v4_apply, val_main_v6_apply, val_main_v5_apply, e3]
  simp only [e1, e2]
  rfl

/-- The projected values. -/
theorem value_entry (x1 : (⟨S4x4096x256, .f32⟩ : BufTy).Contents (Elt Ideal)) (x8 : (⟨S256x256, .f32⟩ : BufTy).Contents (Elt Ideal)) (x9 : (⟨S256, .f32⟩ : BufTy).Contents (Elt Ideal)) (b : Fin 4) (n : Fin 4096) (d : Fin 256) :
    val_main_v11 (F := Ideal) x1 x8 x9 (ix3 b n d) = lin x1 x8 x9 b n d := by
  have e1 : ∀ k, lidx_main_v8 (ix3 b n d) k = ix3 b n k := fun k => by idx3
  have e2 : ∀ k, ridx_main_v8 (ix3 b n d) k = ix2 d k := fun k => by idx2
  have e3 : idx_main_v9 (idx_main_v10 (ix3 b n d)) = ix1 d := by idx1
  rw [val_main_v11_apply, val_main_v8_apply, val_main_v10_apply, val_main_v9_apply, e3]
  simp only [e1, e2]
  rfl

/-! ## The points' coordinates, spread over the pairs -/

theorem rightRowU (x3 : (⟨S4x4096x2, .f32⟩ : BufTy).Contents (Elt Ideal)) (b : Fin 4) (u : Fin 1) (j : Fin 4096) :
    val_main_v23 (F := Ideal) x3 (ix3 b u j) = x3 (ix3 b j (0 : Fin 2)) := by
  unfold val_main_v23 val_main_v22 val_main_v21
  exact Cert.PointRows.coordRow_apply (by decide) (by decide) x3 0 (0 : Fin 2) rfl _ _ _ b u j

theorem rightRowV (x3 : (⟨S4x4096x2, .f32⟩ : BufTy).Contents (Elt Ideal)) (b : Fin 4) (u : Fin 1) (j : Fin 4096) :
    val_main_v15 (F := Ideal) x3 (ix3 b u j) = x3 (ix3 b j (1 : Fin 2)) := by
  unfold val_main_v15 val_main_v14 val_main_v13
  exact Cert.PointRows.coordRow_apply (by decide) (by decide) x3 1 (1 : Fin 2) rfl _ _ _ b u j

theorem leftColU (x2 : (⟨S4x4096x2, .f32⟩ : BufTy).Contents (Elt Ideal)) (b : Fin 4) (n : Fin 4096) (u : Fin 1) :
    val_main_v20 (F := Ideal) x2 (ix3 b n u) = x2 (ix3 b n (0 : Fin 2)) := by
  unfold val_main_v20
  exact Cert.PointRows.coordCol_apply x2 0 (0 : Fin 2) rfl _ b n u

theorem leftColV (x2 : (⟨S4x4096x2, .f32⟩ : BufTy).Contents (Elt Ideal)) (b : Fin 4) (n : Fin 4096) (u : Fin 1) :
    val_main_v12 (F := Ideal) x2 (ix3 b n u) = x2 (ix3 b n (1 : Fin 2)) := by
  unfold val_main_v12
  exact Cert.PointRows.coordCol_apply x2 1 (1 : Fin 2) (by rfl) _ b n u

/-- The first-coordinate difference of the pair `(n, j)`. -/
theorem du_entry (x2 x3 : (⟨S4x4096x2, .f32⟩ : BufTy).Contents (Elt Ideal)) (b : Fin 4) (n j : Fin 4096) :
    val_main_v26 (F := Ideal) x2 x3 (ix3 b n j) = x2 (ix3 b n (0 : Fin 2)) - x3 (ix3 b j (0 : Fin 2)) := by
  have e1 : idx_main_v24 (ix3 b n j) = ix3 b n (0 : Fin 1) := by idx3
  have e2 : idx_main_v25 (ix3 b n j) = ix3 b (0 : Fin 1) j := by idx3
  rw [val_main_v26_apply, val_main_v24_apply, val_main_v25_apply, e1, e2, leftColU, rightRowU]
  rfl

/-- The second-coordinate distance of the pair. -/
theorem dv_entry (x2 x3 : (⟨S4x4096x2, .f32⟩ : BufTy).Contents (Elt Ideal)) (b : Fin 4) (n j : Fin 4096) :
    val_main_v19 (F := Ideal) x2 x3 (ix3 b n j)
      = FloatOps.absf (F := Ideal) (φ := .f32) (x2 (ix3 b n (1 : Fin 2)) - x3 (ix3 b j (1 : Fin 2))) := by
  have e1 : idx_main_v16 (ix3 b n j) = ix3 b n (0 : Fin 1) := by idx3
  have e2 : idx_main_v17 (ix3 b n j) = ix3 b (0 : Fin 1) j := by idx3
  rw [val_main_v19_apply, val_main_v18_apply, val_main_v16_apply, val_main_v17_apply, e1, e2, leftColV, rightRowV]
  rfl

/-- The mask bit of the pair. -/
theorem keeps_entry (x2 x3 : (⟨S4x4096x2, .f32⟩ : BufTy).Contents (Elt Ideal)) (b : Fin 4) (n j : Fin 4096) :
    val_main_v34 (F := Ideal) x2 x3 (ix3 b n j)
      = keeps (x2 (ix3 b n (0 : Fin 2))) (x2 (ix3 b n (1 : Fin 2))) (x3 (ix3 b j (0 : Fin 2))) (x3 (ix3 b j (1 : Fin 2))) := by
  rw [val_main_v34_apply, val_main_v31_apply, val_main_v33_apply, val_main_v28_apply, val_main_v30_apply,
    val_main_v27_apply, val_main_v29_apply, val_main_v32_apply, dv_entry, du_entry]
  rfl

/-! ## The masked scores and their softmax -/

/-- The masked score of the pair: the quotient by sixteen is the product with one sixteenth. -/
theorem score_entry (x0 x1 : (⟨S4x4096x256, .f32⟩ : BufTy).Contents (Elt Ideal)) (x2 x3 : (⟨S4x4096x2, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (b : Fin 4) (n j : Fin 4096) :
    val_main_v38 (F := Ideal) x0 x1 x2 x3 x4 x5 x6 x7 (ix3 b n j) = score x0 x1 x2 x3 x4 x5 x6 x7 b n j := by
  have e1 : ∀ k, lidx_main_v35 (ix3 b n j) k = ix3 b n k := fun k => by idx3
  have e2 : ∀ k, ridx_main_v35 (ix3 b n j) k = ix3 b j k := fun k => by idx3
  rw [val_main_v38_apply, val_main_v37_apply, val_main_v35_apply, val_main_v36_apply, val_main_call0_v0_apply, keeps_entry]
  simp only [e1, e2, query_entry, key_entry]
  show Scalar.select _ (Ideal.div _ (Ideal.ofBits .f32 0x41800000#32)) _ = _
  rw [div_sixteen]
  rfl

/-- The row's greatest score: the further maximum against minus infinity changes nothing. -/
theorem top_entry (x0 x1 : (⟨S4x4096x256, .f32⟩ : BufTy).Contents (Elt Ideal)) (x2 x3 : (⟨S4x4096x2, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (b : Fin 4) (n : Fin 4096) :
    val_main_v41 (F := Ideal) x0 x1 x2 x3 x4 x5 x6 x7 (ix2 b n) = rowTop (score x0 x1 x2 x3 x4 x5 x6 x7 b n) := by
  rw [val_main_v41_apply, val_main_v40_apply]
  unfold val_main_v39
  rw [Cert.LastAxis.reduceMax_last _ _ _ (by decide) _ b n]
  simp only [score_entry]
  show max (Ideal.ofBits .f32 0xFF800000#32) (rowTop (score x0 x1 x2 x3 x4 x5 x6 x7 b n)) = _
  refine max_eq_right ?_
  rw [Cert.Literals.negInf]
  exact bot_le

/-- The shifted exponential of the pair's score. -/
theorem exp_entry (x0 x1 : (⟨S4x4096x256, .f32⟩ : BufTy).Contents (Elt Ideal)) (x2 x3 : (⟨S4x4096x2, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (b : Fin 4) (n j : Fin 4096) :
    val_main_v45 (F := Ideal) x0 x1 x2 x3 x4 x5 x6 x7 (ix3 b n j) = rowExp (score x0 x1 x2 x3 x4 x5 x6 x7 b n) j := by
  have e1 : idx_main_v42 (idx_main_v43 (ix3 b n j)) = ix2 b n := by idx2
  rw [val_main_v45_apply, val_main_v44_apply, val_main_v43_apply, val_main_v42_apply, e1, top_entry, score_entry]
  rfl

/-- The row total. -/
theorem total_entry (x0 x1 : (⟨S4x4096x256, .f32⟩ : BufTy).Contents (Elt Ideal)) (x2 x3 : (⟨S4x4096x2, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (b : Fin 4) (n : Fin 4096) :
    val_main_v46 (F := Ideal) x0 x1 x2 x3 x4 x5 x6 x7 (ix2 b n) = ∑ k : Fin 4096, rowExp (score x0 x1 x2 x3 x4 x5 x6 x7 b n) k := by
  have e : ∀ k, idx_main_v46 (ix2 b n) k = ix3 b n k := fun k => by idx3
  rw [val_main_v46_apply]
  simp only [e, exp_entry]
  show Ideal.ofBits .f32 0x00000000#32 + _ = _
  rw [Ideal.ofBits_zero_f32, zero_add]

section
variable (x0 x1 : (⟨S4x4096x256, .f32⟩ : BufTy).Contents (Elt Ideal)) (x2 x3 : (⟨S4x4096x2, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal))
variable (hfin : ∀ (b : Fin 4) (n j : Fin 4096), IsReal (score x0 x1 x2 x3 x4 x5 x6 x7 b n j))
include hfin

/-- The weight of the pair: the quotient by a nonzero total is the product with its reciprocal. -/
theorem weight_entry (b : Fin 4) (n j : Fin 4096) :
    val_main_v49 (F := Ideal) x0 x1 x2 x3 x4 x5 x6 x7 (ix3 b n j) = weights (score x0 x1 x2 x3 x4 x5 x6 x7 b n) j := by
  have e1 : idx_main_v47 (idx_main_v48 (ix3 b n j)) = ix2 b n := by idx2
  rw [val_main_v49_apply, val_main_v48_apply, val_main_v47_apply, e1, total_entry, exp_entry]
  exact quotient_eq_weights (by decide) _ (hfin b n) j

/-- THE WEIGHTS. -/
theorem attn_eq : val_main_v49 (F := Ideal) x0 x1 x2 x3 x4 x5 x6 x7 = attn x0 x1 x2 x3 x4 x5 x6 x7 := by
  funext i
  obtain ⟨b, n, j, rfl⟩ : ∃ (b : Fin 4) (n j : Fin 4096), i = ix3 b n j := ⟨i 0, i 1, i 2, eq_ix3 i⟩
  rw [weight_entry x0 x1 x2 x3 x4 x5 x6 x7 hfin]
  rfl

/-- The matched features. -/
theorem matched_entry (x8 : (⟨S256x256, .f32⟩ : BufTy).Contents (Elt Ideal)) (x9 : (⟨S256, .f32⟩ : BufTy).Contents (Elt Ideal)) (b : Fin 4) (n : Fin 4096) (d : Fin 256) :
    val_main_v50 (F := Ideal) x0 x1 x2 x3 x4 x5 x6 x7 x8 x9 (ix3 b n d) = matched x0 x1 x2 x3 x4 x5 x6 x7 x8 x9 b n d := by
  have e1 : ∀ k, lidx_main_v50 (ix3 b n d) k = ix3 b n k := fun k => by idx3
  have e2 : ∀ k, ridx_main_v50 (ix3 b n d) k = ix3 b k d := fun k => by idx3
  rw [val_main_v50_apply]
  simp only [e1, e2, weight_entry x0 x1 x2 x3 x4 x5 x6 x7 hfin, value_entry]
  rfl

/-- THE OUTPUT FEATURES. -/
theorem out_eq (x8 : (⟨S256x256, .f32⟩ : BufTy).Contents (Elt Ideal)) (x9 : (⟨S256, .f32⟩ : BufTy).Contents (Elt Ideal)) (x10 : (⟨S256x256, .f32⟩ : BufTy).Contents (Elt Ideal)) (x11 : (⟨S256, .f32⟩ : BufTy).Contents (Elt Ideal)) :
    val_main_v60 (F := Ideal) x0 x1 x2 x3 x4 x5 x6 x7 x8 x9 x10 x11 = outp x0 x1 x2 x3 x4 x5 x6 x7 x8 x9 x10 x11 := by
  funext i
  obtain ⟨b, n, o, rfl⟩ : ∃ (b : Fin 4) (n : Fin 4096) (o : Fin 256), i = ix3 b n o := ⟨i 0, i 1, i 2, eq_ix3 i⟩
  have e1 : ∀ k, lidx_main_v57 (ix3 b n o) k = ix3 b n k := fun k => by idx3
  have e2 : ∀ k, ridx_main_v57 (ix3 b n o) k = ix2 o k := fun k => by idx2
  have e3 : idx_main_v58 (idx_main_v59 (ix3 b n o)) = ix1 o := by idx1
  rw [val_main_v60_apply, val_main_v57_apply, val_main_v59_apply, val_main_v58_apply, e3]
  simp only [e1, e2, matched_entry x0 x1 x2 x3 x4 x5 x6 x7 hfin]
  rfl

/-- THE WEIGHTED DIFFERENCES. -/
theorem disp_eq : val_main_v53 (F := Ideal) x0 x1 x2 x3 x4 x5 x6 x7 = disp x0 x1 x2 x3 x4 x5 x6 x7 := by
  funext i
  obtain ⟨b, n, z, rfl⟩ : ∃ (b : Fin 4) (n : Fin 4096) (z : Fin 1), i = ix3 b n z := ⟨i 0, i 1, i 2, eq_ix3 i⟩
  have e1 : idx_main_v53 (ix3 b n z) = ix2 b n := by idx2
  have e2 : ∀ k, idx_main_v52 (ix2 b n) k = ix3 b n k := fun k => by idx3
  rw [val_main_v53_apply, e1, val_main_v52_apply]
  simp only [e2, val_main_v51_apply, weight_entry x0 x1 x2 x3 x4 x5 x6 x7 hfin, du_entry]
  show Ideal.ofBits .f32 0x00000000#32 + _ = _
  rw [Ideal.ofBits_zero_f32, zero_add]
  rfl

end

/-- THE FLAGS: the disjunction of a row's mask bits, read as a number. -/
theorem conf_eq (x2 x3 : (⟨S4x4096x2, .f32⟩ : BufTy).Contents (Elt Ideal)) : val_main_v56 (F := Ideal) x2 x3 = conf x2 x3 := by
  funext i
  obtain ⟨b, n, z, rfl⟩ : ∃ (b : Fin 4) (n : Fin 4096) (z : Fin 1), i = ix3 b n z := ⟨i 0, i 1, i 2, eq_ix3 i⟩
  have e1 : idx_main_v55 (ix3 b n z) = ix2 b n := by idx2
  rw [val_main_v56_apply, val_main_v55_apply, e1]
  unfold val_main_v54
  rw [Cert.LastAxis.reduceOr_last _ _ _ (by decide) _ b n]
  simp only [keeps_entry]
  show _ = anySet _
  rw [anySet_eq_fold_ori]
  rfl

/-- Scores of real features, weights and biases are real. -/
theorem score_real (x0 x1 : (⟨S4x4096x256, .f32⟩ : BufTy).Contents (Elt Ideal)) (x2 x3 : (⟨S4x4096x2, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (h0 : ∀ i, IsReal (x0 i)) (h1 : ∀ i, IsReal (x1 i)) (h4 : ∀ i, IsReal (x4 i))
    (h5 : ∀ i, IsReal (x5 i)) (h6 : ∀ i, IsReal (x6 i)) (h7 : ∀ i, IsReal (x7 i)) (b : Fin 4) (n j : Fin 4096) :
    IsReal (score x0 x1 x2 x3 x4 x5 x6 x7 b n j) :=
  logits_real _ _ _ _ _ _ (lin_real x0 x4 x5 h0 h4 h5 b n) (lin_real x1 x6 x7 h1 h6 h7 b) j

end Cert.ReferenceIdeal.Whole

end
-- ==== Proof.Finite.lean ====
/-
  What the precondition gives: every entry of the features, the weights and the biases is a real number.

  The precondition is a conjunction of twelve tests, one per argument array: every entry's absolute value lies below
  plus infinity. An extended real whose absolute value `max x (-x)` lies below the top is neither the top nor the
  bottom, so it is a real number. The conjunction is a chain of `and`s of the twelve tests, each test a reduction by
  `and` over all indices of the array; a chain that is one has every link one, and a reduction by `and` that is one
  had a one at every index.
-/
import proofs.«126372_j19327352832529_2_alg».proof.Pre_finite_inputs
import proofs.«126372_j19327352832529_2_alg».proof.Proof.Spec
import Idealize.ShloMosaic.Lib.ReduceAll
import Idealize.ShloMosaic.Lib.Affine
import Idealize.ShloMosaic.Lib.ValueIdx

noncomputable section

namespace Cert.Pre_finite_inputs.Decode

open Idealize.ShloMosaic Idealize.ShloMosaic.ValueIdx Cert.Pre_finite_inputs Cert.BandAttention

instance : Subsingleton S_.Idx := ⟨fun a b => funext fun d => d.elim0⟩

/-- An extended real whose absolute value lies below plus infinity is a real number. -/
theorem real_of_abs_lt {x : EReal}
    (h : Ideal.cmp .olt (max x (-x)) (Ideal.ofBits .f32 0x7F800000#32) = 1#1) : IsReal x := by
  rw [Cert.Literals.posInf] at h
  have hlt : max x (-x) < ⊤ := by
    by_contra hn
    unfold Ideal.cmp at h
    simp [hn] at h
  have h1 : x ≠ ⊤ := fun e => by rw [e] at hlt; simp at hlt
  have h2 : x ≠ ⊥ := fun e => by rw [e] at hlt; simp at hlt
  exact ⟨x.toReal, (EReal.coe_toReal h1 h2).symm⟩

/-- A conjunction of two one-bit words that is one has both words one. -/
theorem both_one {x y : IVec S_ 1} (h : andi x y ix0 = 1#1) : x ix0 = 1#1 ∧ y ix0 = 1#1 :=
  IntOp.andi_eq_one.mp h

variable [Facts]
open Facts

/-- One test: where the reduction by `and` of "the absolute value lies below plus infinity" is one, every entry of the
    array is a real number. -/
theorem real_of_test {s : Shape} {axes : List (Fin s.rank)} (x : FVec Ideal s .f32) (hb : S_.BroadcastsInDim s (![] : Fin 0 → Fin s.rank))
    (hr : s.ReducesTo axes S_) (hu : 0 < S_.numel)
    (e : Host.reduce IntOp.andi (cmpf .olt (Host.absf x) (broadcastInDim s ![] hb (constant (F := Ideal) S_ .f32 0x7F800000#32)))
      (constantI S_ 1 1#1) hr hu ix0 = 1#1) (i : s.Idx) : IsReal (x i) :=
  real_of_abs_lt (Host.reduce_andi_all _ _ hr hu ix0 e i)

/-- THE PRECONDITION, READ: the two feature arrays, the query and key weights and their biases hold real numbers. -/
theorem args_real (a0 a1 : FVec Ideal S4x4096x256 .f32) (a2 a3 : FVec Ideal S4x4096x2 .f32) (a4 : FVec Ideal S256x256 .f32)
    (a5 : FVec Ideal S256 .f32) (a6 : FVec Ideal S256x256 .f32) (a7 : FVec Ideal S256 .f32) (a8 : FVec Ideal S256x256 .f32)
    (a9 : FVec Ideal S256 .f32) (a10 : FVec Ideal S256x256 .f32) (a11 : FVec Ideal S256 .f32)
    (h : fn (F := Ideal) a0 a1 a2 a3 a4 a5 a6 a7 a8 a9 a10 a11 = fun _ => 1#1) :
    (∀ i, IsReal (a0 i)) ∧ (∀ i, IsReal (a1 i)) ∧ (∀ i, IsReal (a4 i)) ∧ (∀ i, IsReal (a5 i)) ∧ (∀ i, IsReal (a6 i))
      ∧ (∀ i, IsReal (a7 i)) := by
  have h58 : fn (F := Ideal) a0 a1 a2 a3 a4 a5 a6 a7 a8 a9 a10 a11 ix0 = 1#1 := congrFun h ix0
  obtain ⟨h53, -⟩ := both_one h58
  obtain ⟨h48, -⟩ := both_one h53
  obtain ⟨h43, -⟩ := both_one h48
  obtain ⟨h38, -⟩ := both_one h43
  obtain ⟨h33, r7⟩ := both_one h38
  obtain ⟨h28, r6⟩ := both_one h33
  obtain ⟨h23, r5⟩ := both_one h28
  obtain ⟨h18, r4⟩ := both_one h23
  obtain ⟨h13, -⟩ := both_one h18
  obtain ⟨h8, -⟩ := both_one h13
  obtain ⟨r0, r1⟩ := both_one h8
  exact ⟨real_of_test a0 _ _ _ r0, real_of_test a1 _ _ _ r1, real_of_test a4 _ _ _ r4, real_of_test a5 _ _ _ r5,
    real_of_test a6 _ _ _ r6, real_of_test a7 _ _ _ r7⟩

end Cert.Pre_finite_inputs.Decode

end
-- ==== Proof.lean ====
/-
  Masked attention between two point sets: the kernel against its reference, over the extended reals.

  Both programs compute, for every batch and every left point, a softmax over the right points of the scaled inner
  products of projected features, masked by a band condition on the points' coordinates, and from the weights the
  output features, the weighted mean of the first-coordinate differences and a flag telling whether the band is
  empty. The kernel works block by block: 64 grid points, each on 256 left rows of one batch, the first point of a
  batch projecting the batch's keys and values for the fifteen points after it. The reference works on the whole
  arrays. Both are shown to end at one specification (`Cert.BandAttention`), the kernel's blocks tiling the arrays
  and the reference's stages read at an index. Three steps join the two spellings: a scale by one sixteenth against
  a quotient by sixteen, a product with a reciprocal against a quotient by the row total (equal because the total of a
  row of real scores is positive, which is where the finiteness of the inputs is used), and a flag computed through a
  row maximum against a disjunction of bits.
-/
import proofs.«126372_j19327352832529_2_alg».proof.Defs
import proofs.«126372_j19327352832529_2_alg».proof.Proof.Gen.Kernel
import proofs.«126372_j19327352832529_2_alg».proof.Proof.Gen.Kernel.Frame
import proofs.«126372_j19327352832529_2_alg».proof.Proof.Gen.KernelIdeal
import proofs.«126372_j19327352832529_2_alg».proof.Proof.Gen.KernelIdeal.Frame
import proofs.«126372_j19327352832529_2_alg».proof.Proof.Gen.KernelIdeal.Value
import proofs.«126372_j19327352832529_2_alg».proof.Proof.Gen.ReferenceIdeal
import proofs.«126372_j19327352832529_2_alg».proof.Proof.Gen.ReferenceIdeal.Run
import proofs.«126372_j19327352832529_2_alg».proof.Proof.Gen.ReferenceIdeal.Read
import proofs.«126372_j19327352832529_2_alg».proof.Proof.Gen.Pre_finite_inputs
import proofs.«126372_j19327352832529_2_alg».proof.Proof.Whole
import proofs.«126372_j19327352832529_2_alg».proof.Proof.RefWhole
import proofs.«126372_j19327352832529_2_alg».proof.Proof.Finite
import Idealize.ShloMosaic.Adequacy
import Idealize.ShloMosaic.Init

noncomputable section

namespace Cert.Proof

open Idealize.ShloMosaic Idealize.ShloMosaic.TcCoe Idealize.SL.Sem Cert.BandAttention

section
variable [hKernel : Cert.Kernel.Facts] [hKernelIdeal : Cert.KernelIdeal.Facts] [hReferenceIdeal : Cert.ReferenceIdeal.Facts]
  [hPre : Cert.Pre_finite_inputs.Facts]

theorem frame_kernel : Cert.frame_Kernel := fun m ρ _ => Cert.Kernel.Gen.frame m ρ

theorem frame_kernelIdeal : Cert.frame_KernelIdeal := fun m ρ _ => Cert.KernelIdeal.Gen.frame m ρ

/-- The reference's run, its results dropped. -/
theorem frame_referenceIdeal : Cert.frame_ReferenceIdeal := fun m ρ _ =>
  (θ_run Cert.ReferenceIdeal.defs _ _).mono (fun _ h c => (h c).2.2.2.2) (Cert.ReferenceIdeal.Value.run (F := Ideal) m ρ)

/-- At the extended reals the kernel's four result arrays and the reference's are the specification's four functions of
    arguments that agree; the inputs' finiteness makes every row total nonzero. -/
theorem algebraic : Cert.algebraic_KernelIdeal_ReferenceIdeal := by
  intro m ρ m' ρ' hpre hagree
  refine ⟨_, _, _, _, Cert.KernelIdeal.Whole.run m ρ, ?_⟩
  refine (θ_run Cert.ReferenceIdeal.defs _ _).mono (fun r h c => ?_) (Cert.ReferenceIdeal.Value.run (F := Ideal) m' ρ')
  obtain ⟨a0, a1, a2, a3, a4, a5, a6, a7, a8, a9, a10, a11⟩ := hagree c
  obtain ⟨f0, f1, f4, f5, f6, f7⟩ := Cert.Pre_finite_inputs.Decode.args_real _ _ _ _ _ _ _ _ _ _ _ _ (hpre c)
  have hfin := Cert.ReferenceIdeal.Whole.score_real (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) f0 f1 f4 f5 f6 f7
  refine ⟨(h c).1.trans ?_, (h c).2.1.trans ?_, (h c).2.2.1.trans ?_, (h c).2.2.2.1.trans ?_, (h c).2.2.2.2⟩
  · rw [Cert.ReferenceIdeal.Read.val_main_v60_eq, a0, a1, a2, a3, a4, a5, a6, a7, a8, a9, a10, a11]
    exact Cert.ReferenceIdeal.Whole.out_eq _ _ _ _ _ _ _ _ hfin _ _ _ _
  · rw [Cert.ReferenceIdeal.Read.val_main_v53_eq, a0, a1, a2, a3, a4, a5, a6, a7]
    exact Cert.ReferenceIdeal.Whole.disp_eq _ _ _ _ _ _ _ _ hfin
  · rw [a2, a3]
    exact (Cert.ReferenceIdeal.Read.val_main_v56_eq _ _).trans (Cert.ReferenceIdeal.Whole.conf_eq _ _)
  · rw [Cert.ReferenceIdeal.Read.val_main_v49_eq, a0, a1, a2, a3, a4, a5, a6, a7]
    exact Cert.ReferenceIdeal.Whole.attn_eq _ _ _ _ _ _ _ _ hfin

end

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
